-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel

variable [Facts]

def fn {F : FTy → Type} [FloatOps F] (main_arg0 : FVec F S16384 .f32) (main_arg1 : IVec S16384 32) : IVec S_ 1 :=
  let main_v0 : FVec F S16384 .f32 := Host.absf main_arg0
  let main_cst : FVec F S_ .f32 := constant S_ .f32 0x7F800000#32
  let main_v1 : FVec F S16384 .f32 := broadcastInDim S16384 ![] bcast_S_S16384 main_cst
  let main_v2 : IVec S16384 1 := cmpf .olt main_v0 main_v1
  let main_c : IVec S_ 1 := constantI S_ 1 1#1
  let main_v3 : IVec S_ 1 := (fun x v => Host.reduce IntOp.andi x v reducesTo_S16384_S_d0 h_S_) main_v2 main_c
  main_v3
-- ==== Kernel.lean ====
abbrev S16384 : Shape := ⟨1, ![16384]⟩
abbrev S1x1 : Shape := ⟨2, ![1, 1]⟩
abbrev S1024 : Shape := ⟨1, ![1024]⟩
abbrev S1024x1 : Shape := ⟨2, ![1024, 1]⟩
abbrev S1x1024 : Shape := ⟨2, ![1, 1024]⟩
abbrev S1024x1024 : Shape := ⟨2, ![1024, 1024]⟩
abbrev S1 : Shape := ⟨1, ![1]⟩
abbrev S_ : Shape := ⟨0, ![]⟩

abbrev nBuf : Space → Nat
  | .hbm => 27
  | .vmem => 10
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S1x1, .f32⟩
  | .hbm, ⟨3, _⟩ => ⟨S_, .f32⟩
  | .hbm, ⟨4, _⟩ => ⟨S_, .i32⟩
  | .hbm, ⟨5, _⟩ => ⟨S16384, .i32⟩
  | .hbm, ⟨6, _⟩ => ⟨S16384, .i1⟩
  | .hbm, ⟨7, _⟩ => ⟨S_, .i32⟩
  | .hbm, ⟨8, _⟩ => ⟨S16384, .i32⟩
  | .hbm, ⟨9, _⟩ => ⟨S16384, .i1⟩
  | .hbm, ⟨10, _⟩ => ⟨S16384, .i32⟩
  | .hbm, ⟨11, _⟩ => ⟨S_, .i32⟩
  | .hbm, ⟨12, _⟩ => ⟨S_, .i32⟩
  | .hbm, ⟨13, _⟩ => ⟨S_, .f32⟩
  | .hbm, ⟨14, _⟩ => ⟨S16384, .i32⟩
  | .hbm, ⟨15, _⟩ => ⟨S_, .i32⟩
  | .hbm, ⟨16, _⟩ => ⟨S_, .i32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .i1⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .local _ .vmem, ⟨0, _⟩ => ⟨S1024, .f32⟩
  | .local _ .vmem, ⟨1, _⟩ => ⟨S1024, .f32⟩
  | .local _ .vmem, ⟨2, _⟩ => ⟨S1024, .i32⟩
  | .local _ .vmem, ⟨3, _⟩ => ⟨S1024, .i32⟩
  | .local _ .vmem, ⟨4, _⟩ => ⟨S1024, .f32⟩
  | .local _ .vmem, ⟨5, _⟩ => ⟨S1024, .f32⟩
  | .local _ .vmem, ⟨6, _⟩ => ⟨S1024, .i32⟩
  | .local _ .vmem, ⟨7, _⟩ => ⟨S1024, .i32⟩
  | .local _ .vmem, ⟨8, _⟩ => ⟨S1x1, .f32⟩
  | .local _ .vmem, ⟨9, _⟩ => ⟨S1x1, .f32⟩
  | _, _ => ⟨S16384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_c : Ref sig .tc := ⟨.hbm, 4, rfl⟩
abbrev main_v2 : Ref sig .tc := ⟨.hbm, 5, rfl⟩
abbrev main_v3 : Ref sig .tc := ⟨.hbm, 6, rfl⟩
abbrev main_c_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_c_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_3 : Ref sig .tc := ⟨.hbm, 21, rfl⟩
abbrev main_v14 : Ref sig .tc := ⟨.hbm, 22, rfl⟩
abbrev main_v15 : Ref sig .tc := ⟨.hbm, 23, rfl⟩
abbrev main_cst_4 : Ref sig .tc := ⟨.hbm, 24, rfl⟩
abbrev main_call0_v0 : Ref sig .tc := ⟨.hbm, 25, rfl⟩
abbrev main_v16 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8

abbrev nD : Nat := 1
abbrev τ : Topo := Topo.v7x

variable {F : FTy → Type} [FloatOps F]

abbrev grid0 : Pipeline.Grid := ⟨2, ![16, 16], ![false, false]⟩

def k0_cond2 (i : grid0.Coords) : BitVec 1 :=
  let arg0 : BitVec 32 := BitVec.ofNat 32 (i 0).val
  let c15_i32 : BitVec 32 := 15#32
  let v45 : BitVec 1 := Scalar.cmpi .eq arg0 c15_i32
  let arg1 : BitVec 32 := BitVec.ofNat 32 (i 1).val
  let c15_i32_13 : BitVec 32 := 15#32
  let v46 : BitVec 1 := Scalar.cmpi .eq arg1 c15_i32_13
  let v47 : BitVec 1 := Scalar.andi v45 v46
  let v48 : BitVec 32 := Scalar.extui v47
  let c0_i32_14 : BitVec 32 := 0#32
  let v49 : BitVec 1 := Scalar.cmpi .ne v48 c0_i32_14
  v49

def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  ![arg0.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  ![arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1024_S1024_0 : ∀ a, (![0] : Fin 1 → Nat) a + S1024.size a ≤ S1024.size a
  h_S1024 : 0 < S1024.numel
  natLt_1_32 : 1 < 32
  shapeCasts_S1024_S1024x1 : S1024.ShapeCasts S1024x1
  shapeCasts_S1024_S1x1024 : S1024.ShapeCasts S1x1024
  broadcasts_S1024x1_S1024x1024 : S1024x1.Broadcasts S1024x1024
  broadcasts_S1x1024_S1024x1024 : S1x1024.Broadcasts S1024x1024
  reduces_S1024x1024_S1024 : S1024x1024.Reduces [1] S1024
  reduces_S1x1024_S1 : S1x1024.Reduces [1] S1
  shapeCasts_S1_S1x1 : S1.ShapeCasts S1x1
  inpos_S1x1_p0_0 : ∀ a, (![0, 0] : Fin 2 → Nat) a < S1x1.size a
  shapeCasts_S1x1_S_ : S1x1.ShapeCasts S_
  bcast_S_S16384 : S_.BroadcastsInDim S16384 (![] : Fin 0 → Fin S16384.rank)
  reducesTo_S16384_S_d0 : S16384.ReducesTo [0] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024.size a ≤ S16384.size a
  hwx0_0 : ∀ i : grid0.Coords, EltTy.bits .f32 = 32 ∨ (Rect.block (s := S16384) S1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024.size a ≤ S16384.size a
  hwx0_1 : ∀ i : grid0.Coords, EltTy.bits .i32 = 32 ∨ (Rect.block (s := S16384) S1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S16384.size a
  hwx0_2 : ∀ i : grid0.Coords, EltTy.bits .f32 = 32 ∨ (Rect.block (s := S16384) S1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S16384.size a
  hwx0_3 : ∀ i : grid0.Coords, EltTy.bits .i32 = 32 ∨ (Rect.block (s := S16384) S1024.size (cc0_transform_3 i) (hinb0_3 i)).WholeWords (EltTy.packing .i32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)

variable [Facts₀]

abbrev win0_0 : Pipeline.Window sig grid0 :=
  Pipeline.Window.ofSpec (Memref.whole main_arg0) S1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1.size cc0_transform_4 reads0_4 true true 1 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S16384 : Shape := ⟨1, ![16384]⟩
abbrev S_ : Shape := ⟨0, ![]⟩
abbrev S16384x1 : Shape := ⟨2, ![16384, 1]⟩
abbrev S1x16384 : Shape := ⟨2, ![1, 16384]⟩
abbrev S16384x16384 : Shape := ⟨2, ![16384, 16384]⟩

abbrev nBuf : Space → Nat
  | .hbm => 55
  | .vmem => 0
  | .smem => 0
  | _ => 0

abbrev bufTy : (tb : Table) → Fin (tcTables nBuf tb) → BufTy
  | .hbm, ⟨0, _⟩ => ⟨S16384, .f32⟩
  | .hbm, ⟨1, _⟩ => ⟨S16384, .i32⟩
  | .hbm, ⟨2, _⟩ => ⟨S16384, .f32⟩
  | .hbm, ⟨3, _⟩ => ⟨S16384, .f32⟩
  | .hbm, ⟨4, _⟩ => ⟨S_, .f32⟩
  | .hbm, ⟨5, _⟩ => ⟨S16384, .f32⟩
  | .hbm, ⟨6, _⟩ => ⟨S16384, .f32⟩
  | .hbm, ⟨7, _⟩ => ⟨S_, .f32⟩
  | .hbm, ⟨8, _⟩ => ⟨S16384, .f32⟩
  | .hbm, ⟨9, _⟩ => ⟨S16384, .f32⟩
  | .hbm, ⟨10, _⟩ => ⟨S_, .i32⟩
  | .hbm, ⟨11, _⟩ => ⟨S16384, .i32⟩
  | .hbm, ⟨12, _⟩ => ⟨S16384, .i1⟩
  | .hbm, ⟨13, _⟩ => ⟨S_, .i32⟩
  | .hbm, ⟨14, _⟩ => ⟨S16384, .i32⟩
  | .hbm, ⟨15, _⟩ => ⟨S16384, .i1⟩
  | .hbm, ⟨16, _⟩ => ⟨S16384, .i32⟩
  | .hbm, ⟨17, _⟩ => ⟨S_, .i32⟩
  | .hbm, ⟨18, _⟩ => ⟨S_, .i32⟩
  | .hbm, ⟨19, _⟩ => ⟨S_, .f32⟩
  | .hbm, ⟨20, _⟩ => ⟨S16384, .i32⟩
  | .hbm, ⟨21, _⟩ => ⟨S_, .i32⟩
  | .hbm, ⟨22, _⟩ => ⟨S_, .i32⟩
  | .hbm, ⟨23, _⟩ => ⟨S_, .f32⟩
  | .hbm, ⟨24, _⟩ => ⟨S16384x1, .f32⟩
  | .hbm, ⟨25, _⟩ => ⟨S1x16384, .f32⟩
  | .hbm, ⟨26, _⟩ => ⟨S16384x16384, .f32⟩
  | .hbm, ⟨27, _⟩ => ⟨S16384x16384, .f32⟩
  | .hbm, ⟨28, _⟩ => ⟨S16384x16384, .f32⟩
  | .hbm, ⟨29, _⟩ => ⟨S_, .f32⟩
  | .hbm, ⟨30, _⟩ => ⟨S16384x16384, .f32⟩
  | .hbm, ⟨31, _⟩ => ⟨S16384x16384, .f32⟩
  | .hbm, ⟨32, _⟩ => ⟨S_, .f32⟩
  | .hbm, ⟨33, _⟩ => ⟨S16384x16384, .f32⟩
  | .hbm, ⟨34, _⟩ => ⟨S16384x16384, .f32⟩
  | .hbm, ⟨35, _⟩ => ⟨S16384x1, .i1⟩
  | .hbm, ⟨36, _⟩ => ⟨S1x16384, .i1⟩
  | .hbm, ⟨37, _⟩ => ⟨S16384x16384, .i1⟩
  | .hbm, ⟨38, _⟩ => ⟨S16384x16384, .i1⟩
  | .hbm, ⟨39, _⟩ => ⟨S16384x16384, .i1⟩
  | .hbm, ⟨40, _⟩ => ⟨S_, .f32⟩
  | .hbm, ⟨41, _⟩ => ⟨S_, .f32⟩
  | .hbm, ⟨42, _⟩ => ⟨S16384x16384, .f32⟩
  | .hbm, ⟨43, _⟩ => ⟨S16384x16384, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .i1⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | _, _ => ⟨S16384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_v6 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_c_2 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_c_3 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_6 : Ref sig .tc := ⟨.hbm, 40, rfl⟩
abbrev main_call0_v0 : Ref sig .tc := ⟨.hbm, 41, rfl⟩
abbrev main_call0_v1 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_cst_8 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_call1_v0 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  bcast_S_S16384 : S_.BroadcastsInDim S16384 (![] : Fin 0 → Fin S16384.rank)
  natLt_1_32 : 1 < 32
  reducesTo_S16384_S_d0 : S16384.ReducesTo [0] S_
  h_S_ : 0 < S_.numel
  bcast_S16384_S16384x1_0 : S16384.BroadcastsInDim S16384x1 (![0] : Fin 1 → Fin S16384x1.rank)
  bcast_S16384_S1x16384_1 : S16384.BroadcastsInDim S1x16384 (![1] : Fin 1 → Fin S1x16384.rank)
  bcast_S16384x1_S16384x16384_0_1 : S16384x1.BroadcastsInDim S16384x16384 (![0, 1] : Fin 2 → Fin S16384x16384.rank)
  bcast_S1x16384_S16384x16384_0_1 : S1x16384.BroadcastsInDim S16384x16384 (![0, 1] : Fin 2 → Fin S16384x16384.rank)
  bcast_S_S16384x16384 : S_.BroadcastsInDim S16384x16384 (![] : Fin 0 → Fin S16384x16384.rank)
  reducesTo_S16384x16384_S_d0_1 : S16384x16384.ReducesTo [0, 1] S_

variable [Facts₀]

class Facts : Prop extends Facts₀ where

variable [Facts]
-- ==== Proof.KIBase.lean ====
/-
  What every part of the frame proof of this program is stated over: the contents of the device's buffers when
  the region is entered, @main as "the region, then host operations", each window's block at a grid point, the
  two conditions the body branches on (the first grid point, the last grid point), decided over the grid, and
  the memrefs the body is called with.
-/
import proofs.«154038_j90666759619072_2_alg».proof.Proof.Gen.KernelIdeal.Launch
import proofs.«154038_j90666759619072_2_alg».proof.Proof.Gen.KernelIdeal.Skeleton
import proofs.«154038_j90666759619072_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The device's buffer contents when the region is entered: no host operation comes before it, so the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is the region followed by the two stretches of host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [] [hostOps1, hostOps1_1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- "This is the first grid point" as the body computes it. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcondFirst : ∀ t : Fin cfg0.N, condFirst (grid0.coords t) ↔ t.val = 0 :=
  (by decide +kernel : ∀ t : Fin grid0.N, condFirst (grid0.coords t) ↔ t.val = 0)

/-- "This is the last grid point" as the body computes it. -/
abbrev condLast (i : grid0.Coords) : Prop := k0_cond2 i = 1#1
theorem hcondLast : ∀ t : Fin cfg0.N, condLast (grid0.coords t) ↔ t.val = 255 :=
  (by decide +kernel : ∀ t : Fin grid0.N, condLast (grid0.coords t) ↔ t.val = 255)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last point the output window is idle and not written back. -/
theorem idleAt4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem liveAt4 : ∀ t : Fin cfg0.N, condLast (grid0.coords t) → cfg0.idle 4 (grid0.coords t) = false := by decide +kernel

/-! ## The memrefs the body is called with -/

abbrev ms0 (t : Fin cfg0.N) : Memref sig .tc .vmem S1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The scratch accumulator: a whole scoped buffer of the kernel's own. -/
abbrev scM : Memref sig .tc .vmem S1x1 .f32 := Memref.whole cc0_scratch0

/-- The invariant the launch hands the region, with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.KernelIdeal.Hand

end
-- ==== Proof.KIRunA.lean ====
/-
  The kernel body run at the FIRST grid point (the accumulator is zeroed, then the tile's sum is added; nothing is copied out): on whole staging memrefs holding the four input
  blocks, the body runs to its end, leaves the inputs as they were, and leaves in the accumulator (and, at the last point,
  in the output's staging buffer) the stores it made, recorded as a list of pieces found while the body is run.
-/
import proofs.«154038_j90666759619072_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRunA (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 : Vec F S1024 .f32) (x1 : Vec F S1024 .i32) (x2 : Vec F S1024 .f32) (x3 : Vec F S1024 .i32) :
    Σ' (L4 : List (View.Piece (Elt F) S1x1 .f32)), { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, fun xi E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KIRunB.lean ====
/-
  The kernel body run at a MIDDLE grid point (the tile's sum is added to the accumulator; nothing is copied out): on whole staging memrefs holding the four input
  blocks, the body runs to its end, leaves the inputs as they were, and leaves in the accumulator (and, at the last point,
  in the output's staging buffer) the stores it made, recorded as a list of pieces found while the body is run.
-/
import proofs.«154038_j90666759619072_2_alg».proof.Proof.KIRunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRunB (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 : Vec F S1024 .f32) (x1 : Vec F S1024 .i32) (x2 : Vec F S1024 .f32) (x3 : Vec F S1024 .i32) (xs : Vec F S1x1 .f32) :
    Σ' (L4 : List (View.Piece (Elt F) S1x1 .f32)), { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, fun xi E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.KernelIdeal.Hand

end
-- ==== Proof.KIRunC.lean ====
/-
  The kernel body run at the LAST grid point (the tile's sum is added to the accumulator, which is then copied into the output's staging buffer): on whole staging memrefs holding the four input
  blocks, the body runs to its end, leaves the inputs as they were, and leaves in the accumulator (and, at the last point,
  in the output's staging buffer) the stores it made, recorded as a list of pieces found while the body is run.
-/
import proofs.«154038_j90666759619072_2_alg».proof.Proof.KIRunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRunC (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 : Vec F S1024 .f32) (x1 : Vec F S1024 .i32) (x2 : Vec F S1024 .f32) (x3 : Vec F S1024 .i32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.KernelIdeal.Hand

end
-- ==== Proof.KIFrame.lean ====
/-
  The accumulator point by point, the proof data of the pipeline, and the body obligation.

  After grid point n the scratch accumulator holds what the body's stores left there: at the first point the tile's
  sum added to the zero just stored, at every later point the tile's sum added to what the point before left.  The
  output's staging buffer is touched at the last point only, where it receives the accumulator.  The four input
  windows hold their blocks at every point (fetched there or not), and the two windows on each argument array hold
  that array at the two halves of the full share.
-/
import proofs.«154038_j90666759619072_2_alg».proof.Proof.KIRunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window and the scratch, as views through which their contents are stated. -/
abbrev VO : View sig .tc .vmem S1x1 .f32 := (Memref.whole cc0_stg4_0 : Memref sig .tc .vmem S1x1 .f32).view
abbrev VS : View sig .tc .vmem S1x1 .f32 := scM.view

/-! ## What each case leaves -/

theorem scoverA (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i) (x0 : Vec F S1024 .f32) (x1 : Vec F S1024 .i32) (x2 : Vec F S1024 .f32) (x3 : Vec F S1024 .i32) (y : S1x1.Idx) :
    ∃ pc ∈ (kernelRunA c i arg2 harg2 arg3 harg3 arg4 harg4 arg5 harg5 arg6 harg6 arg7 harg7 hc0 hc1 x0 x1 x2 x3).2.1, y ∈ pc.1.set :=
  View.cover_of_tiledL (kernelRunA c i arg2 harg2 arg3 harg3 arg4 harg4 arg5 harg5 arg6 harg6 arg7 harg7 hc0 hc1 x0 x1 x2 x3).2.1 S1x1.size (by sl_kernel_rfl) y
/-- What the first point leaves in the accumulator. -/
def soutA (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i) (x0 : Vec F S1024 .f32) (x1 : Vec F S1024 .i32) (x2 : Vec F S1024 .f32) (x3 : Vec F S1024 .i32) : Vec F S1x1 .f32 :=
  VS.read (Elt F) (VS.writes (Elt F) VS.junk (kernelRunA c i arg2 harg2 arg3 harg3 arg4 harg4 arg5 harg5 arg6 harg6 arg7 harg7 hc0 hc1 x0 x1 x2 x3).2.1)

theorem scoverB (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i) (x0 : Vec F S1024 .f32) (x1 : Vec F S1024 .i32) (x2 : Vec F S1024 .f32) (x3 : Vec F S1024 .i32) (xs : Vec F S1x1 .f32) (y : S1x1.Idx) :
    ∃ pc ∈ (kernelRunB c i arg2 harg2 arg3 harg3 arg4 harg4 arg5 harg5 arg6 harg6 arg7 harg7 hc0 hc1 x0 x1 x2 x3 xs).2.1, y ∈ pc.1.set :=
  View.cover_of_tiledL (kernelRunB c i arg2 harg2 arg3 harg3 arg4 harg4 arg5 harg5 arg6 harg6 arg7 harg7 hc0 hc1 x0 x1 x2 x3 xs).2.1 S1x1.size (by sl_kernel_rfl) y
/-- What a middle point leaves in the accumulator. -/
def soutB (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i) (x0 : Vec F S1024 .f32) (x1 : Vec F S1024 .i32) (x2 : Vec F S1024 .f32) (x3 : Vec F S1024 .i32) (xs : Vec F S1x1 .f32) : Vec F S1x1 .f32 :=
  VS.read (Elt F) (VS.writes (Elt F) VS.junk (kernelRunB c i arg2 harg2 arg3 harg3 arg4 harg4 arg5 harg5 arg6 harg6 arg7 harg7 hc0 hc1 x0 x1 x2 x3 xs).2.1)

theorem scoverC (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i) (x0 : Vec F S1024 .f32) (x1 : Vec F S1024 .i32) (x2 : Vec F S1024 .f32) (x3 : Vec F S1024 .i32) (xs : Vec F S1x1 .f32) (y : S1x1.Idx) :
    ∃ pc ∈ (kernelRunC c i arg2 harg2 arg3 harg3 arg4 harg4 arg5 harg5 arg6 harg6 arg7 harg7 hc0 hc1 x0 x1 x2 x3 xs).2.1, y ∈ pc.1.set :=
  View.cover_of_tiledL (kernelRunC c i arg2 harg2 arg3 harg3 arg4 harg4 arg5 harg5 arg6 harg6 arg7 harg7 hc0 hc1 x0 x1 x2 x3 xs).2.1 S1x1.size (by sl_kernel_rfl) y
/-- What the last point leaves in the accumulator, -/
def soutC (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i) (x0 : Vec F S1024 .f32) (x1 : Vec F S1024 .i32) (x2 : Vec F S1024 .f32) (x3 : Vec F S1024 .i32) (xs : Vec F S1x1 .f32) : Vec F S1x1 .f32 :=
  VS.read (Elt F) (VS.writes (Elt F) VS.junk (kernelRunC c i arg2 harg2 arg3 harg3 arg4 harg4 arg5 harg5 arg6 harg6 arg7 harg7 hc0 hc1 x0 x1 x2 x3 xs).2.1)
theorem coverC (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i) (x0 : Vec F S1024 .f32) (x1 : Vec F S1024 .i32) (x2 : Vec F S1024 .f32) (x3 : Vec F S1024 .i32) (xs : Vec F S1x1 .f32) (y : S1x1.Idx) :
    ∃ pc ∈ (kernelRunC c i arg2 harg2 arg3 harg3 arg4 harg4 arg5 harg5 arg6 harg6 arg7 harg7 hc0 hc1 x0 x1 x2 x3 xs).1, y ∈ pc.1.set :=
  View.cover_of_tiledL (kernelRunC c i arg2 harg2 arg3 harg3 arg4 harg4 arg5 harg5 arg6 harg6 arg7 harg7 hc0 hc1 x0 x1 x2 x3 xs).1 S1x1.size (by sl_kernel_rfl) y
/-- and in the output's staging buffer. -/
def outC (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i) (x0 : Vec F S1024 .f32) (x1 : Vec F S1024 .i32) (x2 : Vec F S1024 .f32) (x3 : Vec F S1024 .i32) (xs : Vec F S1x1 .f32) : Vec F S1x1 .f32 :=
  VO.read (Elt F) (VO.writes (Elt F) VO.junk (kernelRunC c i arg2 harg2 arg3 harg3 arg4 harg4 arg5 harg5 arg6 harg6 arg7 harg7 hc0 hc1 x0 x1 x2 x3 xs).1)

/-! ## The accumulator after each point -/

theorem not_first_succ (n : ℕ) (hn : n + 1 < cfg0.N) : ¬condFirst (grid0.coords ⟨n + 1, hn⟩) :=
  fun h => absurd ((hcondFirst ⟨n + 1, hn⟩).mp h) (Nat.succ_ne_zero n)
theorem first_zero (hn : 0 < cfg0.N) : condFirst (grid0.coords ⟨0, hn⟩) := (hcondFirst ⟨0, hn⟩).mpr rfl
theorem not_last_zero (hn : 0 < cfg0.N) : ¬condLast (grid0.coords ⟨0, hn⟩) :=
  fun h => absurd ((hcondLast ⟨0, hn⟩).mp h) (show ¬(0 : ℕ) = 255 by decide)

/-- What the scratch accumulator holds after the body at position `n`. -/
def accAt (c : Dev nD) : (n : ℕ) → n < cfg0.N → Vec F S1x1 .f32
  | 0, hn => soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) (first_zero hn) (not_last_zero hn) (iblk m c 0 ⟨0, hn⟩) (iblk m c 1 ⟨0, hn⟩) (iblk m c 2 ⟨0, hn⟩) (iblk m c 3 ⟨0, hn⟩)
  | n + 1, hn =>
    if h1 : n + 1 = 255 then
      soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (not_first_succ n hn) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (accAt c n (Nat.lt_of_succ_lt hn))
    else
      soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (not_first_succ n hn) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

theorem accAt_A (c : Dev nD) (t : Fin cfg0.N) (h0 : t.val = 0) (h1 : ¬t.val = 255) :
    accAt m c t.val t.isLt = soutA c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk m c 0 t) (iblk m c 1 t) (iblk m c 2 t) (iblk m c 3 t) := by
  obtain ⟨n, hn⟩ := t
  cases n with
  | zero => rfl
  | succ n => exact absurd h0 (Nat.succ_ne_zero n)

theorem accAt_B (c : Dev nD) (t : Fin cfg0.N) (h0 : ¬t.val = 0) (h1 : ¬t.val = 255) :
    accAt m c t.val t.isLt = soutB c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => exact (dif_neg h1).trans rfl

theorem accAt_C (c : Dev nD) (t : Fin cfg0.N) (h0 : ¬t.val = 0) (h1 : t.val = 255) :
    accAt m c t.val t.isLt = soutC c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => exact (dif_pos h1).trans rfl

/-- What the output's staging buffer holds after the body: at the last point what that point stores; elsewhere the buffer is idle and its contents are not named. -/
def outAt (c : Dev nD) (t : Fin cfg0.N) : Vec F S1x1 .f32 :=
  if h1 : t.val = 255 then
    if h0 : t.val = 0 then accAt m c t.val t.isLt
    else outC c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (accAt m c (t.val - 1) (Nat.lt_of_le_of_lt (Nat.sub_le _ _) t.isLt))
  else accAt m c t.val t.isLt

theorem outAt_C (c : Dev nD) (t : Fin cfg0.N) (h0 : ¬t.val = 0) (h1 : t.val = 255) :
    outAt m c t = outC c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (accAt m c (t.val - 1) (Nat.lt_of_le_of_lt (Nat.sub_le _ _) t.isLt)) := by
  unfold outAt; rw [dif_pos h1, dif_neg h0]

/-- The region invariant before position `n`: before the first point the launch's (the scratch at anything); afterwards
    the scratch at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem live_in (c : Dev nD) (t : Fin cfg0.N) :
    (dats m 0 c).leavesExact 0 t = owns (c : Thread nD τ) (ms0 t) fullShare (iblk m c 0 t)
    ∧ (dats m 0 c).leavesExact 1 t = owns (c : Thread nD τ) (ms1 t) fullShare (iblk m c 1 t)
    ∧ (dats m 0 c).leavesExact 2 t = owns (c : Thread nD τ) (ms2 t) fullShare (iblk m c 2 t)
    ∧ (dats m 0 c).leavesExact 3 t = owns (c : Thread nD τ) (ms3 t) fullShare (iblk m c 3 t) := by
  refine ⟨?_, ?_, ?_, ?_⟩
  · unfold Dat.leavesExact; rw [liveAt0 t, after0]
  · unfold Dat.leavesExact; rw [liveAt1 t, after1]
  · unfold Dat.leavesExact; rw [liveAt2 t, after2]
  · unfold Dat.leavesExact; rw [liveAt3 t, after3]

end Cert.KernelIdeal.Hand

end
-- ==== Proof.KIBody.lean ====
/-
  The body obligation: at every grid point the body, called on the windows' current staging buffers holding the four
  input blocks, leaves the inputs in place, the accumulator at this point's contents, and the output's staging buffer
  untouched except at the last point, where it receives the accumulator.  The point's case (first, middle, last) is read
  off its position; each case is that case's run.
-/
import proofs.«154038_j90666759619072_2_alg».proof.Proof.KIFrame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [(live_in m c t).1, (live_in m c t).2.1, (live_in m c t).2.2.1, (live_in m c t).2.2.2]
  have hN : t.val < 256 := lt_of_lt_of_eq t.isLt (show cfg0.N = 256 from N_0)
  by_cases h0 : t.val = 0
  · have h1 : ¬t.val = 255 := by omega
    rw [Dat.leavesExact_idle (dats m 0 c) 4 t (idleAt4 t (fun h => h1 ((hcondLast t).mp h))) (noFlush4 t (fun h => h1 ((hcondLast t).mp h)))]
    rw [accAt_A m c t h0 h1]
    unfold soutA; (try dsimp only)
    rw [PhiS_castSucc m c t, PhiS_zero m c _ _ h0, PhiA0_eq]
    iintro ⟨⟨HS, Hg⟩, Ho, ⟨%d0, H0⟩, ⟨%d1, H1⟩, ⟨%d2, H2⟩, ⟨%d3, H3⟩, ⟨%d4, H4⟩⟩
    iapply ((kernelRunA c (grid0.coords t) _ _ _ _ _ _ _ _ _ _ _ _ ((hcondFirst t).mpr h0) (fun h => h1 ((hcondLast t).mp h)) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro; exact View.read_writes_of_cover _ _ _ _ _ (scoverA c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 255
    · rw [show (dats m 0 c).leavesExact 4 t = owns (c : Thread nD τ) (ms4 t) fullShare ((dats m 0 c).after 4 t) from by
        unfold Dat.leavesExact; rw [liveAt4 t ((hcondLast t).mpr h1)], after4]
      rw [outAt_C m c t h0 h1, accAt_C m c t h0 h1]
      unfold outC soutC; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply ((kernelRunC c (grid0.coords t) _ _ _ _ _ _ _ _ _ _ _ _ (fun h => h0 ((hcondFirst t).mp h)) ((hcondLast t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (scoverC c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · rw [Dat.leavesExact_idle (dats m 0 c) 4 t (idleAt4 t (fun h => h1 ((hcondLast t).mp h))) (noFlush4 t (fun h => h1 ((hcondLast t).mp h)))]
      rw [accAt_B m c t h0 h1]
      unfold soutB; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply ((kernelRunB c (grid0.coords t) _ _ _ _ _ _ _ _ _ _ _ _ (fun h => h0 ((hcondFirst t).mp h)) (fun h => h1 ((hcondLast t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (scoverB c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

end Cert.KernelIdeal.Hand

end
-- ==== Proof.KILaunch.lean ====
/-
  The launch of the kernel region when two input windows read one array, with host operations after the region.
  Each array read by two windows is split between them by shares when the region is entered and joined back when it
  is left; the host operations after the region then run over whole buffers, and the buffers are split again for
  the region's own account of its arrays. The statement is generic in the proof data and in the float model.
-/
import proofs.«154038_j90666759619072_2_alg».proof.Proof.KIBase

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The device's buffers when the region is left: the output array at what the proof data computes, every other
    buffer as the region found it. -/
def Wx (dats : (p : Fin 1) → (c : Dev nD) → Dat τ (Elt F) Unit ℕ (UR sig nD τ) ℕ (cfgs p) c) (c : Dev nD) :
    Valuation τ sig (Elt F) :=
  Function.update (V0 m c) (Proc.devRef .tc main_v0) ((dats 0 c).arrAt 4 cfg0.N)

theorem Wx_v0 (dats : (p : Fin 1) → (c : Dev nD) → Dat τ (Elt F) Unit ℕ (UR sig nD τ) ℕ (cfgs p) c) (c : Dev nD) :
    Wx m dats c (Proc.devRef .tc main_v0) = (dats 0 c).arrAt 4 cfg0.N := by
  unfold Wx; exact Function.update_self _ _ _

theorem Wx_of_ne (dats : (p : Fin 1) → (c : Dev nD) → Dat τ (Elt F) Unit ℕ (UR sig nD τ) ℕ (cfgs p) c) (c : Dev nD)
    (b : Ref sig .tc) (hb : b ≠ main_v0) : Wx m dats c (Proc.devRef .tc b) = m ((c.tc : Thread nD τ).loc b) := by
  unfold Wx
  rw [Function.update_of_ne (StableHlo.devRef_ne_of_ne hb)]
  rfl

/-! ## The arrays, buffer by buffer -/

/-- The distinct buffers behind the windows' arrays are the two arguments and the output. -/
theorem arrBufs0_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_v0) ↦{fullShare} W main_v0)) := by
  unfold Pipeline.arrBufs
  exact bigSep_eq_bigSepL_of_eq [main_arg0, main_arg1, main_v0] (by decide) (by decide) _

section Shares

variable (dats : (p : Fin 1) → (c : Dev nD) → Dat τ (Elt F) Unit ℕ (UR sig nD τ) ℕ (cfgs p) c)
  (hq0 : ∀ c, (dats 0 c).q 0 = fullShare.left) (hq2 : ∀ c, (dats 0 c).q 2 = fullShare.right)
  (hq1 : ∀ c, (dats 0 c).q 1 = fullShare.left) (hq3 : ∀ c, (dats 0 c).q 3 = fullShare.right)

include hq0 hq1 hq2 hq3 in
/-- The proof data's account of the arrays, window by window: each argument at its two halves, the output whole. -/
theorem arrays0_eq (c : Dev nD) (G : (w : Fin cfg0.W) → Buf (Elt F) ((cfg0.win w).arr.view.loc (c.tc : Thread nD τ))) :
    ((dats 0 c).arrays G : sProp 𝕄)
      = iprop((((c.tc : Thread nD τ).loc main_arg0) ↦{fullShare.left} G 0) ∗ (((c.tc : Thread nD τ).loc main_arg1) ↦{fullShare.left} G 1)
          ∗ (((c.tc : Thread nD τ).loc main_arg0) ↦{fullShare.right} G 2) ∗ (((c.tc : Thread nD τ).loc main_arg1) ↦{fullShare.right} G 3)
          ∗ (((c.tc : Thread nD τ).loc main_v0) ↦{fullShare} G 4)) := by
  have s0 : (dats 0 c).share 0 = fullShare.left := (if_neg Bool.false_ne_true).trans (hq0 c)
  have s1 : (dats 0 c).share 1 = fullShare.left := (if_neg Bool.false_ne_true).trans (hq1 c)
  have s2 : (dats 0 c).share 2 = fullShare.right := (if_neg Bool.false_ne_true).trans (hq2 c)
  have s3 : (dats 0 c).share 3 = fullShare.right := (if_neg Bool.false_ne_true).trans (hq3 c)
  have s4 : (dats 0 c).share 4 = fullShare := if_pos rfl
  unfold Dat.arrays
  rw [bigSep_W0, (arr_whole0 0).set_eq_univ, (arr_whole0 1).set_eq_univ, (arr_whole0 4).set_eq_univ, s0, s1, s2, s3, s4]

include hq0 hq1 hq2 hq3 in
/-- Whole buffers at contents `W` are the proof data's arrays at contents that agree with `W`, and back: an argument
    read by two windows is halved between them, and the halves, at one contents, make the whole again. -/
theorem arrays0_iff (c : Dev nD) (W : (b : Ref sig .tc) → Buf (Elt F) ((c.tc : Thread nD τ).loc b))
    (G : (w : Fin cfg0.W) → Buf (Elt F) ((cfg0.win w).arr.view.loc (c.tc : Thread nD τ)))
    (h0 : G 0 = W main_arg0) (h1 : G 1 = W main_arg1) (h2 : G 2 = W main_arg0) (h3 : G 3 = W main_arg1) (h4 : G 4 = W main_v0) :
    (Pipeline.arrBufs (Ix := Unit) (Name := ℕ) (U := UR sig nD τ) (Lvl := ℕ) spec0 c W : sProp 𝕄) ⊣⊢ (dats 0 c).arrays G := by
  rw [arrBufs0_eq, arrays0_eq dats hq0 hq2 hq1 hq3 c G, h0, h1, h2, h3, h4]
  constructor
  · iintro ⟨H0, H1, H4⟩
    ihave H0 := (pointsTo_share (PosShare.mem_left_op_right fullShare)).1 $$ H0
    ihave H1 := (pointsTo_share (PosShare.mem_left_op_right fullShare)).1 $$ H1
    icases H0 with ⟨H0l, H0r⟩
    icases H1 with ⟨H1l, H1r⟩
    isplitl [H0l]; · iexact H0l
    isplitl [H1l]; · iexact H1l
    isplitl [H0r]; · iexact H0r
    isplitl [H1r]; · iexact H1r
    iexact H4
  · iintro ⟨H0l, H1l, H0r, H1r, H4⟩
    isplitl [H0l H0r]
    · iapply (pointsTo_share (PosShare.mem_left_op_right fullShare)).2
      isplitl [H0l] <;> iassumption
    isplitl [H1l H1r]
    · iapply (pointsTo_share (PosShare.mem_left_op_right fullShare)).2
      isplitl [H1l] <;> iassumption
    iexact H4

end Shares

/-! ## The host operations after the region -/

/-- The references the host operations after the region write. -/
abbrev tailW : List (Ref sig .tc) :=
  [main_v1, main_c, main_v2, main_v3, main_c_0, main_v4, main_v5, main_v6, main_c_1, main_v7, main_v8, main_v9, main_c_2, main_v10,
   main_v11, main_v12, main_cst, main_v13, main_cst_3, main_v14, main_v15, main_cst_4, main_call0_v0, main_v16]

theorem tail_writes : (hostOps1 ++ hostOps1_1 : List (HloOp τ sig (Elt F))).Forall
    fun op => op.writes ⊆ (tailW.map (Proc.devRef (τ := τ) .tc)).toFinset := by
  simp only [List.cons_append, List.nil_append, List.Forall]
  repeat' constructor
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer outside that list keeps its contents through the host operations after the region. -/
theorem tail_keeps (W : Valuation τ sig (Elt F)) (r : Ref sig .tc) (h : r ∉ tailW) :
    StableHlo.after (hostOps1 ++ hostOps1_1) W (Proc.devRef .tc r) = W (Proc.devRef .tc r) :=
  StableHlo.after_of_writes_sub _ W tail_writes h

theorem tail_sub : ∀ ops ∈ ([hostOps1, hostOps1_1] : List (List (HloOp τ sig (Elt F)))), ∀ op ∈ ops, op.bufs ⊆ Pipeline.ucRefs τ sig := by
  intro ops hops op hop
  rcases List.mem_cons.mp hops with rfl | hops
  · exact Pipeline.sub_ucRefs op (List.forall_iff_forall_mem.mp hostOps1_sub op hop)
  · rcases List.mem_singleton.mp hops with rfl
    exact Pipeline.sub_ucRefs op (List.forall_iff_forall_mem.mp hostOps1_1_sub op hop)

theorem tail_fresh : ∀ ops ∈ ([hostOps1, hostOps1_1] : List (List (HloOp τ sig (Elt F)))), ∀ op ∈ ops, op.fresh = ∅ := by
  intro ops hops op hop
  rcases List.mem_cons.mp hops with rfl | hops
  · exact List.forall_iff_forall_mem.mp hostOps1_fresh op hop
  · rcases List.mem_singleton.mp hops with rfl
    exact List.forall_iff_forall_mem.mp hostOps1_1_fresh op hop

theorem tail_flatten : ([hostOps1, hostOps1_1] : List (List (HloOp τ sig (Elt F)))).flatten = hostOps1 ++ hostOps1_1 := by
  simp only [List.flatten_cons, List.flatten_nil, List.append_nil]

/-- The unscoped buffers held whole are the buffers behind the arrays and the buffers that bypass the region. -/
theorem held_uc (c : Dev nD) (W : Valuation τ sig (Elt F)) :
    (StableHlo.held (c.tc : Thread nD τ) (Pipeline.ucRefs τ sig) W : sProp 𝕄)
      = iprop((Pipeline.arrBufs (Ix := Unit) (Name := ℕ) (U := UR sig nD τ) (Lvl := ℕ) spec0 c (fun b => W (Proc.devRef .tc b)) : sProp 𝕄)
          ∗ Pipeline.unscopedRest (Ix := Unit) (Name := ℕ) (U := UR sig nD τ) (Lvl := ℕ) spec0 c (fun b => W (Proc.devRef .tc b))) := by
  rw [← Pipeline.unscopedBufs_held, Pipeline.unscopedBufs_split₀ cfgs 0 winFacts₀0.arr_unscoped c]

section Tail

variable (dats : (p : Fin 1) → (c : Dev nD) → Dat τ (Elt F) Unit ℕ (UR sig nD τ) ℕ (cfgs p) c)
  (hA : ∀ c w, (dats 0 c).A w = V m c (Pipeline.arrRef spec0 w))
  (hq0 : ∀ c, (dats 0 c).q 0 = fullShare.left) (hq2 : ∀ c, (dats 0 c).q 2 = fullShare.right)
  (hq1 : ∀ c, (dats 0 c).q 1 = fullShare.left) (hq3 : ∀ c, (dats 0 c).q 3 = fullShare.right)

include hA hq0 hq1 hq2 hq3 in
/-- From the region's exit the host operations run over whole buffers — the halves of each argument joined, both at
    the argument's contents — and write no array, so the arrays go back to the proof data's account as they came. -/
theorem tail_of (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c
                  (fun b => StableHlo.after (hostOps1 ++ hostOps1_1) (Wx m dats c) (Proc.devRef .tc b))) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1, StableHlo.seq hostOps1_1]) Q' := by
  classical
  -- what the arrays hold at the exit, as contents of the buffers
  have e0 : (dats 0 c).arrAt 0 cfg0.N = Wx m dats c (Proc.devRef .tc main_arg0) := by
    rw [Pipeline.Dat.arrAt_in _ 0 rfl, hA, Wx_of_ne m dats c main_arg0 (by decide)]; rfl
  have e1 : (dats 0 c).arrAt 1 cfg0.N = Wx m dats c (Proc.devRef .tc main_arg1) := by
    rw [Pipeline.Dat.arrAt_in _ 1 rfl, hA, Wx_of_ne m dats c main_arg1 (by decide)]; rfl
  have e2 : (dats 0 c).arrAt 2 cfg0.N = Wx m dats c (Proc.devRef .tc main_arg0) := by
    rw [Pipeline.Dat.arrAt_in _ 2 rfl, hA, Wx_of_ne m dats c main_arg0 (by decide)]; rfl
  have e3 : (dats 0 c).arrAt 3 cfg0.N = Wx m dats c (Proc.devRef .tc main_arg1) := by
    rw [Pipeline.Dat.arrAt_in _ 3 rfl, hA, Wx_of_ne m dats c main_arg1 (by decide)]; rfl
  have e4 : (dats 0 c).arrAt 4 cfg0.N = Wx m dats c (Proc.devRef .tc main_v0) := (Wx_v0 m dats c).symm
  have k0 := tail_keeps (Wx m dats c) main_arg0 (by decide)
  have k1 := tail_keeps (Wx m dats c) main_arg1 (by decide)
  have k4 := tail_keeps (Wx m dats c) main_v0 (by decide)
  have hjoin := arrays0_iff dats hq0 hq2 hq1 hq3 c (fun b => Wx m dats c (Proc.devRef .tc b)) ((dats 0 c).arrAt · cfg0.N) e0 e1 e2 e3 e4
  have hback := arrays0_iff dats hq0 hq2 hq1 hq3 c (fun b => StableHlo.after (hostOps1 ++ hostOps1_1) (Wx m dats c) (Proc.devRef .tc b))
    ((dats 0 c).arrAt · cfg0.N) (e0.trans k0.symm) (e1.trans k1.symm) (e2.trans k0.symm) (e3.trans k1.symm) (e4.trans k4.symm)
  -- the buffers that bypass the region are none of them the output array
  have hrest : (Pipeline.unscopedRest (Ix := Unit) (Name := ℕ) (U := UR sig nD τ) (Lvl := ℕ) spec0 c (V m c) : sProp 𝕄)
      = Pipeline.unscopedRest spec0 c (fun b => Wx m dats c (Proc.devRef .tc b)) := by
    unfold Pipeline.unscopedRest
    exact bigSep_congr fun b hb => by
      beta_reduce
      rw [Wx_of_ne m dats c b fun e => (Finset.mem_sdiff.mp hb).2 (Finset.mem_image.mpr ⟨4, Finset.mem_univ _, e.symm⟩)]; rfl
  rw [Pipeline.unscopedRestP_none, Pipeline.unscopedRestP_none, hrest]
  show _ ⊢ wp _ _ _ (Pipeline.chain ([hostOps1, hostOps1_1].map StableHlo.seq ++ [])) _
  iintro ⟨Hk, Hb, HA, HZ⟩
  ihave HA := hjoin.2 $$ HA
  ihave HH := (Entails.of_eq (held_uc c (Wx m dats c)).symm) $$ [HA HZ]
  · isplitl [HA] <;> iassumption
  iapply (Pipeline.wp_seqs_then (fun q => (cfgs q).toPCfg (Val := Elt F)) defs₀ Variants.none c (Pipeline.ucRefs τ sig) [] [hostOps1, hostOps1_1]
    tail_sub tail_fresh (Wx m dats c)) $$ [Hb HH]
  · isplitl [Hb] <;> iassumption
  iintro HH
  rw [Pipeline.chain_nil, wp_pure, tail_flatten, held_uc]
  imodintro
  iapply Hk
  icases HH with ⟨-, HA, HZ⟩
  isplitl [HA]
  · iapply hback.1; iexact HA
  iexact HZ

end Tail
theorem run_of (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq2 : ∀ c, (dats 0 c).q 2 = fullShare.right)
    (hq1 : ∀ c, (dats 0 c).q 1 = fullShare.left) (hq3 : ∀ c, (dats 0 c).q 3 = fullShare.right)
    (howed : ∀ c t, (dats 0 c).owed t = 0)
    (hbody : ∀ c, Pipeline.BodyObligationLoose (dats 0 c) defs₀ Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v16) = StableHlo.after (hostOps1 ++ hostOps1_1) (Wx m dats c) (Proc.devRef .tc main_v16)) := by
  classical
  unfold defs
  exact Pipeline.θ_run_region_pf_tail (fun q => (cfgs q).toPCfg) (fun q => (cfgs q).toPCfg_adm) dats () cellOf_inj 0 winFacts₀0
    (Pipeline.OwnSemFacts.none spec0) (Pipeline.PreFacts.none _) emb₁ defs₀ Variants.none m ρ main
    (fun _ => Pipeline.chain [StableHlo.seq hostOps1, StableHlo.seq hostOps1_1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays0_iff dats hq0 hq2 hq1 hq3 c (V m c) ((dats 0 c).arrAt · 0) (hA c 0) (hA c 1) (hA c 2) (hA c 3) (hA c 4)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => StableHlo.after (hostOps1 ++ hostOps1_1) (Wx m dats c) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_of m dats hA hq0 hq2 hq1 hq3 c Q')
    (QY := fun c s => ∀ b ∈ Pipeline.restRefsP sig Pipeline.Prefetch.none spec0, s.mem ((c.tc : Thread nD τ).loc b)
      = StableHlo.after (hostOps1 ++ hostOps1_1) (Wx m dats c) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after (hostOps1 ++ hostOps1_1) (Wx m dats c) (Proc.devRef .tc b)) s')
      isplitl [HU] <;> iassumption)
    (hQ := fun s h c => ⟨((h c).1 0).trans ((Pipeline.Dat.arrAt_in _ 0 rfl _).trans (hA c 0)),
      ((h c).1 1).trans ((Pipeline.Dat.arrAt_in _ 1 rfl _).trans (hA c 1)),
      (h c).2.2 main_v16 (Finset.mem_sdiff.mpr ⟨Pipeline.mem_restRefs_of main_v16 rfl (by decide),
        fun hk => by obtain ⟨k, -, -⟩ := Finset.mem_image.mp hk; exact k.elim0⟩)⟩)

end Cert.KernelIdeal.Hand

end
-- ==== Proof.Tail.lean ====
/-
  What both programs do with the pairwise total: count the positive labels P and the negative labels Q,
  and return total / max (P·Q) 1 when P·Q > 0, else 0.  The two programs spell these last operations
  identically, so they are wrapped here once, over any float instance, and never opened: the
  two results are equal as soon as the two totals are.
-/
import Idealize.ShloMosaic.Lib.StableHlo
import Idealize.ShloMosaic.PureOps

noncomputable section

namespace Cert.Hinge

open Idealize.ShloMosaic

abbrev T16384 : Shape := ⟨1, ![16384]⟩
abbrev T_ : Shape := ⟨0, ![]⟩

/-- The count of the labels equal to `k`, as a float. -/
def countEq {F : FTy → Type} [FloatOps F] (hb : T_.BroadcastsInDim T16384 (![] : Fin 0 → Fin T16384.rank))
    (hr : T16384.ReducesTo [0] T_) (h0 : 0 < T_.numel) (hlt : 1 < 32) (k : BitVec 32) (yt : IVec T16384 32) : FVec F T_ .f32 :=
  sitofp .f32 (Host.reduce IntOp.addi (extui 32 (cmpi .eq yt (broadcastInDim T16384 ![] hb (constantI T_ 32 k))) hlt) (constantI T_ 32 0#32) hr h0)

/-- total / max (P·Q) 1 where P·Q > 0, else 0. -/
def tailFn {F : FTy → Type} [FloatOps F] (hb : T_.BroadcastsInDim T16384 (![] : Fin 0 → Fin T16384.rank))
    (hr : T16384.ReducesTo [0] T_) (h0 : 0 < T_.numel) (hlt : 1 < 32) (tot : FVec F T_ .f32) (yt : IVec T16384 32) : FVec F T_ .f32 :=
  select (cmpf .ogt (mulf (countEq (F := F) hb hr h0 hlt 1#32 yt) (countEq (F := F) hb hr h0 hlt 0#32 yt)) (constant (F := F) T_ .f32 0x00000000#32))
    (Host.divf tot (maximumf (mulf (countEq (F := F) hb hr h0 hlt 1#32 yt) (countEq (F := F) hb hr h0 hlt 0#32 yt)) (constant (F := F) T_ .f32 0x3F800000#32)))
    (id (constant (F := F) T_ .f32 0x00000000#32))

end Cert.Hinge

end
-- ==== Proof.KIRun.lean ====
/-
  The run of the whole program: every weakly fair execution terminates, the two argument arrays end unchanged, and the
  result buffer ends at the common last operations (`Cert.Hinge.tailFn`) applied to the output array's one element, re-laid as a
  scalar, and to the labels.
-/
import proofs.«154038_j90666759619072_2_alg».proof.Proof.KIBody
import proofs.«154038_j90666759619072_2_alg».proof.Proof.KILaunch
import proofs.«154038_j90666759619072_2_alg».proof.Proof.Tail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, from the launch theorem for windows that share arrays: the proof data, the body obligation, and the
    invariant's two ends are this program's. -/
theorem run_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v16) = StableHlo.after (hostOps1 ++ hostOps1_1) (Wx m (dats m) c) (Proc.devRef .tc main_v16)) :=
  run_of m ρ (dats m) (A_eq m) (fun _ => rfl) (fun _ => rfl) (fun _ => rfl) (fun _ => rfl) (fun _ _ => rfl)
    (fun c => (body_obligation m c).loose) (hin m) (hout m)

/-- The frame: the program runs to its end and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, (h c).2.1⟩) (run_main m ρ)

open Idealize.ShloMosaic.StableHlo in
set_option maxHeartbeats 2000000 in
set_option maxRecDepth 8192 in
/-- The host operations after the region, read back: the result is the common last operations of the output array's
    element (re-laid as a scalar) and the labels. -/
theorem tail_val (W : Valuation τ sig (Elt F)) :
    StableHlo.after (hostOps1 ++ hostOps1_1) W (Proc.devRef .tc main_v16)
      = Cert.Hinge.tailFn (F := F) bcast_S_S16384 reducesTo_S16384_S_d0 h_S_ natLt_1_32
          (shapeCast S_ (W (Proc.devRef .tc main_v0)) shapeCasts_S1x1_S_) (W (Proc.devRef .tc main_arg1)) := by
  rw [StableHlo.after_append]
  after_results_simp
  rfl

/-- The run with the result named. -/
theorem run_val : θ_run defs (onTc (τ := τ) (main (F := F))) ⟨m, fun _ => 0, ρ⟩ (fun r => ∀ c : Dev nD,
      r.2.mem ((c.tc : Thread nD τ).loc main_v16)
        = Cert.Hinge.tailFn (F := F) bcast_S_S16384 reducesTo_S16384_S_d0 h_S_ natLt_1_32
            (shapeCast S_ ((dats m 0 c).arrAt 4 cfg0.N) shapeCasts_S1x1_S_) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨by
      rw [(h c).2.2, tail_val, Wx_v0, Wx_of_ne m (dats m) c main_arg1 (by decide)], (h c).1, (h c).2.1⟩) (run_main m ρ)

end Cert.KernelIdeal.Hand

end
-- ==== Proof.Spec.lean ====
/-
  The pairwise hinge total, as one function of the two argument arrays.

  For scores x (reals) and labels y (32-bit words) of length 16384 both programs compute
      total = Σ_a Σ_b  [y_a = 1 ∧ y_b = 0] · max (1 − (σ x_a − σ x_b)) 0 ,
  with σ the logistic function, and then divide by the number of (positive, negative) pairs.  The
  kernel cuts the square of pairs into 16 × 16 tiles of 1024 × 1024 pairs and adds the tiles' sums
  one after the other; the reference adds all pairs at once.  On the extended reals addition is
  commutative and associative, so the two orders agree (`total_tiles`).
-/
import Idealize.ShloMosaic.PureOps.Ideal
import Idealize.ShloMosaic.PureOps.Ideal.Laws
import Idealize.ShloMosaic.Lib.ValueIdx

noncomputable section

open scoped BigOperators

namespace Cert.Hinge

open Idealize.ShloMosaic

/-- The float words 1.0 and 0.0 as the extended reals they denote (never evaluated: both programs spell the same words). -/
abbrev one : EReal := Ideal.ofBits .f32 0x3F800000#32
abbrev zero : EReal := Ideal.ofBits .f32 0x00000000#32

/-- The hinge of a pair of scores: max (1 − (σ x − σ y)) 0. -/
def hinge (x y : EReal) : EReal := max (one - (Ideal.logistic x - Ideal.logistic y)) zero

/-- One pair's term: the hinge when the first label is 1 and the second is 0, else nothing. -/
def pair (x y : EReal) (a b : BitVec 32) : EReal := if a = 1#32 ∧ b = 0#32 then hinge x y else 0

/-- The sum over all ordered pairs. -/
def total (yp : Fin 16384 → EReal) (yt : Fin 16384 → BitVec 32) : EReal :=
  ∑ a : Fin 16384, ∑ b : Fin 16384, pair (yp a) (yp b) (yt a) (yt b)

/-- Row `p` of tile row `i`: the element 1024·i + p of the array. -/
def at16 (i : Fin 16) (p : Fin 1024) : Fin 16384 := ⟨1024 * i.val + p.val, by omega⟩

/-- The sum of the tile (i, j): the pairs whose first element lies in block i and second in block j. -/
def tile (yp : Fin 16384 → EReal) (yt : Fin 16384 → BitVec 32) (i j : Fin 16) : EReal :=
  ∑ p : Fin 1024, ∑ q : Fin 1024, pair (yp (at16 i p)) (yp (at16 j q)) (yt (at16 i p)) (yt (at16 j q))

end Cert.Hinge

end
-- ==== Proof.Payload.lean ====
/-
  The kernel body's three pure values, read at the ideal floats (the extended reals).

  One grid step loads a block of 1024 row scores x and row labels a, a block of 1024 column scores y and column
  labels b, and the 1 × 1 accumulator.  It forms the masks m(p) = [a_p = 1] and n(q) = [b_q = 0] as floats, the
  1024 × 1024 tile  max (1 − (σ x_p − σ y_q)) 0 · m(p) · n(q),  sums it along the lanes to a vector, lays that vector
  as one row, sums the row, and adds the result to the accumulator.  Read at an index this is the accumulator plus
  Σ_p Σ_q pair x_p y_q a_p b_q  (`pay3_apply`): a product with a 0–1 mask is the term or nothing, because on the
  extended reals x · 1 = x and x · 0 = 0 · x = 0 for every x, the infinite ones included.  The other two values are
  the accumulator passed through a cast of its own shape (`pay1_eq`) and the splat of the word 0.0 (`pay2_apply`).
-/
import proofs.«154038_j90666759619072_2_alg».proof.Proof.Gen.KernelIdeal.Skeleton
import proofs.«154038_j90666759619072_2_alg».proof.Proof.Spec
import Idealize.ShloMosaic.Lib.ValueLayout
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## Layout operations of the tile, read at coordinates -/

section Layout
variable {α : Type}

/-- A vector `[1024]` laid as a column `[1024, 1]` reads, at `(p, u)`, the vector at `p`. -/
theorem shapeCast_col_apply (x : S1024.Idx → α) (h : S1024.ShapeCasts S1024x1) (p : Fin 1024) (u : Fin 1) :
    shapeCast S1024x1 x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[1024, 1]` broadcast along the lanes reads, at `(p, q)`, the column at `p`. -/
theorem broadcastTo_col_apply (x : S1024x1.Idx → α) (h : S1024x1.Broadcasts S1024x1024) (p q : Fin 1024) :
    broadcastTo S1024x1024 x h (ix2 p q) = x (ix2 p (0 : Fin 1)) := by
  refine broadcastTo_apply x h (ix2 p q) (ix2 p (0 : Fin 1)) fun ax => ?_
  match ax with
  | ⟨0, _⟩ =>
    show p.val = if (1024 : ℕ) = 1 then 0 else p.val
    rw [if_neg (by decide)]
  | ⟨1, _⟩ => rfl

/-- The one-element vector `[1]` laid as `[1, 1]` reads its one element. -/
theorem shapeCast_unit_apply (z : S1.Idx → α) (h : S1.ShapeCasts S1x1) :
    shapeCast S1x1 z h (ix2 (0 : Fin 1) (0 : Fin 1)) = z (ix1 (0 : Fin 1)) :=
  shapeCast_apply z h _ _ (by
    rw [Shape.rowMajor_val_two, Shape.rowMajor_val_one]
    rfl)

/-- The element `[0, 0]` of a `[1, 1]` vector. -/
theorem extractAt_unit (w : S1x1.Idx → α) (h : ∀ a, (![0, 0] : Fin 2 → Nat) a < S1x1.size a) :
    extractAt ![0, 0] w h = w (ix2 (0 : Fin 1) (0 : Fin 1)) := by
  unfold extractAt
  refine congrArg w (funext fun a => ?_)
  match a with
  | ⟨0, _⟩ => rfl
  | ⟨1, _⟩ => rfl

end Layout

/-! ## The two lane sums -/

/-- The sum along the lanes of a `[1024, 1024]` tile, at row `p`: the sum of the row. -/
theorem rowSum_apply (X : FVec Ideal S1024x1024 .f32) (h : S1024x1024.Reduces [1] S1024) (hφ : FKind.Formats .f32)
    (hacc : (0x00000000#32 : BitVec 32) = 0x00000000#32) (p : Fin 1024) :
    multiReduction .add [1] S1024 X 0x00000000#32 h hφ hacc (ix1 p) = ∑ q : Fin 1024, X (ix2 p q) := by
  refine (Ideal.multiReduction_add_single X 0x00000000#32 h hφ hacc (ix1 p)).trans ?_
  show ∑ q : Fin 1024, X (h.lift (ix1 p) q) = _
  refine Finset.sum_congr rfl fun q _ => congrArg X (funext fun d => ?_)
  match d with
  | ⟨0, _⟩ => rfl
  | ⟨1, _⟩ => rfl

/-- The sum along the lanes of a row `[1, 1024]`: the sum of its elements. -/
theorem laneSum_apply (Y : FVec Ideal S1x1024 .f32) (h : S1x1024.Reduces [1] S1) (hφ : FKind.Formats .f32)
    (hacc : (0x00000000#32 : BitVec 32) = 0x00000000#32) :
    multiReduction .add [1] S1 Y 0x00000000#32 h hφ hacc (ix1 (0 : Fin 1)) = ∑ q : Fin 1024, Y (ix2 (0 : Fin 1) q) := by
  refine (Ideal.multiReduction_add_single Y 0x00000000#32 h hφ hacc (ix1 (0 : Fin 1))).trans ?_
  show ∑ q : Fin 1024, Y (h.lift (ix1 (0 : Fin 1)) q) = _
  refine Finset.sum_congr rfl fun q _ => congrArg Y (funext fun d => ?_)
  match d with
  | ⟨0, _⟩ => rfl
  | ⟨1, _⟩ => rfl

/-! ## The label masks -/

/-- The float mask of a label test: 1 where the word equals `k`, else 0. -/
theorem maskWord (a k : BitVec 32) :
    (FloatOps.sitofp (F := Ideal) .f32 ((IntOp.cmpi .eq a k).setWidth 32) : EReal) = if a = k then 1 else 0 := by
  show ((((IntOp.cmpi .eq a k).setWidth 32).toInt : ℝ) : EReal) = _
  unfold IntOp.cmpi
  by_cases h : a = k
  · subst h
    simp
  · have hb : (a == k) = false := by simpa using h
    rw [if_neg h]
    simp [hb]

/-- A term times the two masks is the term where both tests hold, else nothing: on the extended reals
    `x * 1 = x`, `x * 0 = 0` and `0 * x = 0` for every `x`. -/
theorem masked_eq (h : EReal) (a b : BitVec 32) :
    h * (if a = 1#32 then (1 : EReal) else 0) * (if b = 0#32 then (1 : EReal) else 0)
      = if a = 1#32 ∧ b = 0#32 then h else 0 := by
  by_cases ha : a = 1#32 <;> by_cases hb : b = 0#32 <;> simp [ha, hb]

variable [Facts]

/-- The store of the accumulator's new value passes it through a cast of `[1, 1]` to itself. -/
theorem pay1_eq (v : FVec Ideal S1x1 .f32) : Gen.k0_pay1 (F := Ideal) v = v :=
  shapeCast_self v _

/-- The first grid step stores the splat of the word 0.0: the extended real 0. -/
theorem pay2_apply (i : S1x1.Idx) : Gen.k0_pay2 (F := Ideal) i = 0 := by
  unfold Gen.k0_pay2
  rw [shapeCast_self]
  exact Ideal.ofBits_zero_f32

/-- One grid step adds to the accumulator the sum over the tile's pairs. -/
theorem pay3_apply (v5 v7 : Vec Ideal S1024 .f32) (v9 v14 : Vec Ideal S1024 .i32) (v39 : Vec Ideal S1x1 .f32) (i : S1x1.Idx) :
    Gen.k0_pay3 (F := Ideal) v5 v7 v9 v14 v39 i
      = v39 i + ∑ p : Fin 1024, ∑ q : Fin 1024, Cert.Hinge.pair (v5 (ix1 p)) (v7 (ix1 q)) (v9 (ix1 p)) (v14 (ix1 q)) := by
  unfold Gen.k0_pay3
  simp only [addf_apply, broadcast_apply]
  refine congrArg (v39 i + ·) ?_
  rw [extractAt_unit, shapeCast_unit_apply, laneSum_apply]
  refine Finset.sum_congr rfl fun p _ => ?_
  rw [shapeCast_a_1a_apply, rowSum_apply]
  refine Finset.sum_congr rfl fun q _ => ?_
  simp only [mulf_apply, maximumf_apply, subf_apply, broadcast_apply, broadcastTo_col_apply, shapeCast_col_apply,
    broadcastTo_1b_ab_apply, shapeCast_a_1a_apply, sitofp_apply, extui_apply]
  show max (Cert.Hinge.one - (Ideal.logistic (v5 (ix1 p)) - Ideal.logistic (v7 (ix1 q)))) Cert.Hinge.zero
      * FloatOps.sitofp (F := Ideal) .f32 ((IntOp.cmpi .eq (v9 (ix1 p)) 1#32).setWidth 32)
      * FloatOps.sitofp (F := Ideal) .f32 ((IntOp.cmpi .eq (v14 (ix1 q)) 0#32).setWidth 32) = _
  rw [maskWord, maskWord, masked_eq]
  rfl

end Cert.KernelIdeal.Payload

end
-- ==== Proof.Tiles.lean ====
/-
  The tiling law of the pairwise total.  The square of ordered pairs (a, b), a, b < 16384, is cut into 16 × 16 tiles
  of 1024 × 1024 pairs: a = 1024·i + p, b = 1024·j + q.  Addition on the extended reals is commutative and
  associative, so the sum of the 256 tile sums, in any order, is the sum over all pairs (`total_tiles`); and an
  accumulator that starts at 0 and adds tile k/16, k%16 at step k holds the total after 256 steps (`fold_tiles`).
-/
import proofs.«154038_j90666759619072_2_alg».proof.Proof.Spec

noncomputable section

open scoped BigOperators

namespace Cert.Hinge

/-- A position below 16384 is a block below 16 and an offset below 1024. -/
def blockEquiv : Fin 16 × Fin 1024 ≃ Fin 16384 where
  toFun x := at16 x.1 x.2
  invFun a := (⟨a.val / 1024, by have := a.isLt; omega⟩, ⟨a.val % 1024, by omega⟩)
  left_inv x := by
    obtain ⟨i, p⟩ := x
    have hi := i.isLt
    have hp := p.isLt
    refine Prod.ext (Fin.ext ?_) (Fin.ext ?_)
    · show (1024 * i.val + p.val) / 1024 = i.val
      omega
    · show (1024 * i.val + p.val) % 1024 = p.val
      omega
  right_inv a := by
    refine Fin.ext ?_
    show 1024 * (a.val / 1024) + a.val % 1024 = a.val
    omega

/-- A tile number below 256 is a tile row and a tile column below 16. -/
def tileEquiv : Fin 16 × Fin 16 ≃ Fin 256 where
  toFun x := ⟨16 * x.1.val + x.2.val, by have := x.1.isLt; have := x.2.isLt; omega⟩
  invFun t := (⟨t.val / 16, by have := t.isLt; omega⟩, ⟨t.val % 16, by omega⟩)
  left_inv x := by
    obtain ⟨i, j⟩ := x
    have hi := i.isLt
    have hj := j.isLt
    refine Prod.ext (Fin.ext ?_) (Fin.ext ?_)
    · show (16 * i.val + j.val) / 16 = i.val
      omega
    · show (16 * i.val + j.val) % 16 = j.val
      omega
  right_inv t := by
    refine Fin.ext ?_
    show 16 * (t.val / 16) + t.val % 16 = t.val
    omega

/-- Summing block by block, offset by offset, is summing over every position. -/
theorem sum_blocks (g : Fin 16384 → EReal) : ∑ i : Fin 16, ∑ p : Fin 1024, g (at16 i p) = ∑ a : Fin 16384, g a :=
  (Fintype.sum_prod_type' (fun i p => g (at16 i p))).symm.trans
    (Fintype.sum_equiv blockEquiv (fun x => g (at16 x.1 x.2)) g fun _ => rfl)

/-- Summing the tiles by their number is summing them by row and column. -/
theorem sum_tileIdx (T : Fin 16 → Fin 16 → EReal) :
    ∑ t : Fin 256, T ⟨t.val / 16, by have := t.isLt; omega⟩ ⟨t.val % 16, by omega⟩ = ∑ i : Fin 16, ∑ j : Fin 16, T i j :=
  (Fintype.sum_equiv tileEquiv.symm _ (fun x : Fin 16 × Fin 16 => T x.1 x.2) fun _ => rfl).trans
    (Fintype.sum_prod_type' T)

/-- The 256 tile sums add up to the sum over all pairs. -/
theorem total_tiles (yp : Fin 16384 → EReal) (yt : Fin 16384 → BitVec 32) :
    ∑ t : Fin 256, tile yp yt ⟨t.val / 16, by omega⟩ ⟨t.val % 16, by omega⟩ = total yp yt := by
  refine (sum_tileIdx (tile yp yt)).trans ?_
  unfold tile total
  -- bring the sum over tile columns inside the sum over the rows of a tile
  have hswap : ∀ i : Fin 16,
      ∑ j : Fin 16, ∑ p : Fin 1024, ∑ q : Fin 1024, pair (yp (at16 i p)) (yp (at16 j q)) (yt (at16 i p)) (yt (at16 j q))
        = ∑ p : Fin 1024, ∑ b : Fin 16384, pair (yp (at16 i p)) (yp b) (yt (at16 i p)) (yt b) := fun i => by
    rw [Finset.sum_comm]
    refine Finset.sum_congr rfl fun p _ => ?_
    exact sum_blocks fun b => pair (yp (at16 i p)) (yp b) (yt (at16 i p)) (yt b)
  rw [Finset.sum_congr rfl fun i _ => hswap i]
  exact sum_blocks fun a => ∑ b : Fin 16384, pair (yp a) (yp b) (yt a) (yt b)

/-- Tile number `k`, and nothing past the last tile. -/
def tileAt (yp : Fin 16384 → EReal) (yt : Fin 16384 → BitVec 32) (k : ℕ) : EReal :=
  if h : k < 256 then tile yp yt ⟨k / 16, by omega⟩ ⟨k % 16, by omega⟩ else 0

/-- An accumulator that starts at 0 and at step `k` adds tile `(k / 16, k % 16)` holds, after `n ≤ 256` steps, the
    sum of the first `n` tiles. -/
theorem fold_tiles_upto (yp : Fin 16384 → EReal) (yt : Fin 16384 → BitVec 32) (f : ℕ → EReal) (h0 : f 0 = 0)
    (hs : ∀ k (hk : k < 256), f (k + 1) = f k + tile yp yt ⟨k / 16, by omega⟩ ⟨k % 16, by omega⟩) :
    ∀ n, n ≤ 256 → f n = ∑ k ∈ Finset.range n, tileAt yp yt k
  | 0, _ => by rw [h0, Finset.range_zero, Finset.sum_empty]
  | n + 1, hn => by
    have hlt : n < 256 := by omega
    rw [hs n hlt, fold_tiles_upto yp yt f h0 hs n (by omega), Finset.sum_range_succ]
    unfold tileAt
    rw [dif_pos hlt]

/-- After all 256 steps it holds the pairwise total. -/
theorem fold_tiles (yp : Fin 16384 → EReal) (yt : Fin 16384 → BitVec 32) (n : ℕ) (hn : n ≤ 256) (f : ℕ → EReal) (h0 : f 0 = 0)
    (hs : ∀ k (hk : k < 256), f (k + 1) = f k + tile yp yt ⟨k / 16, by omega⟩ ⟨k % 16, by omega⟩) :
    f 256 = total yp yt := by
  rw [fold_tiles_upto yp yt f h0 hs 256 (le_refl _), Finset.sum_range, ← total_tiles yp yt]
  refine Finset.sum_congr rfl fun t _ => ?_
  unfold tileAt
  rw [dif_pos t.isLt]

end Cert.Hinge

end
-- ==== Proof.KIValue.lean ====
/-
  The accumulator's stores read back as values, and what the output array holds at the end.

  Each case of the body leaves, in the scratch accumulator, the payload of its last store: the old accumulator
  (at the first point the zero just stored) plus the tile's sum.  By induction on the grid point the accumulator
  after point n is the sum of the tiles of the points up to n; the last point copies it into the output's
  staging buffer, whose one block is the whole output array.
-/
import proofs.«154038_j90666759619072_2_alg».proof.Proof.KIFrame
import Idealize.ShloMosaic.Lib.Pipeline.Value
import Idealize.ShloMosaic.Lib.ValueIdx
import proofs.«154038_j90666759619072_2_alg».proof.Proof.Payload
import proofs.«154038_j90666759619072_2_alg».proof.Proof.Tiles

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hz : (![0, 0] : Fin 2 → Nat) = fun _ => 0 := funext fun a => by fin_cases a <;> rfl
theorem hz1 : (![0] : Fin 1 → Nat) = fun _ => 0 := funext fun a => by fin_cases a <;> rfl

/-! ## What each case leaves, as the payloads

The body's arithmetic takes the first score block, the second score block, the first label block, the second label
block and the accumulator, in that order. -/

/-- A middle point leaves the old accumulator plus the tile's sum. -/
theorem soutB_eq (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i) (x0 : Vec F S1024 .f32) (x1 : Vec F S1024 .i32) (x2 : Vec F S1024 .f32) (x3 : Vec F S1024 .i32) (xs : Vec F S1x1 .f32) :
    soutB c i arg2 harg2 arg3 harg3 arg4 harg4 arg5 harg5 arg6 harg6 arg7 harg7 hc0 hc1 x0 x1 x2 x3 xs = k0_pay1 (k0_pay3 x0 x2 x1 x3 xs) := by
  unfold soutB
  rw [View.read_writes_eq_canon _ _ _ (scoverB c i arg2 harg2 arg3 harg3 arg4 harg4 arg5 harg5 arg6 harg6 arg7 harg7 hc0 hc1 x0 x1 x2 x3 xs)]
  unfold kernelRunB
  dsimp only
  sl_unfold_words
  rw [View.canon_unit_zero (S := S1x1) hz]
  simp only [View.readAt_eq_ld, harg2.read_unread, harg3.read_unread, harg4.read_unread, harg5.read_unread, harg7.read_unread, View.ld_unit_zero (S := S1024) hz1, View.ld_unit_zero (S := S1x1) hz]

/-- The first point stores the zero block, reads it back, and leaves it plus the tile's sum. -/
theorem soutA_eq (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i) (x0 : Vec F S1024 .f32) (x1 : Vec F S1024 .i32) (x2 : Vec F S1024 .f32) (x3 : Vec F S1024 .i32) :
    soutA c i arg2 harg2 arg3 harg3 arg4 harg4 arg5 harg5 arg6 harg6 arg7 harg7 hc0 hc1 x0 x1 x2 x3 = k0_pay1 (k0_pay3 x0 x2 x1 x3 k0_pay2) := by
  unfold soutA
  rw [View.read_writes_eq_canon _ _ _ (scoverA c i arg2 harg2 arg3 harg3 arg4 harg4 arg5 harg5 arg6 harg6 arg7 harg7 hc0 hc1 x0 x1 x2 x3)]
  unfold kernelRunA
  dsimp only
  sl_unfold_words
  rw [View.canon_cons_unit_zero (S := S1x1) hz, View.readCov_unit_zero (S := S1x1) _ hz]
  simp only [View.readAt_eq_ld, harg2.read_unread, harg3.read_unread, harg4.read_unread, harg5.read_unread, harg7.read_unread, View.ld_unit_zero (S := S1024) hz1, View.ld_unit_zero (S := S1x1) hz]

/-- The last point leaves, in the accumulator, the old accumulator plus the tile's sum, -/
theorem soutC_eq (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i) (x0 : Vec F S1024 .f32) (x1 : Vec F S1024 .i32) (x2 : Vec F S1024 .f32) (x3 : Vec F S1024 .i32) (xs : Vec F S1x1 .f32) :
    soutC c i arg2 harg2 arg3 harg3 arg4 harg4 arg5 harg5 arg6 harg6 arg7 harg7 hc0 hc1 x0 x1 x2 x3 xs = k0_pay1 (k0_pay3 x0 x2 x1 x3 xs) := by
  unfold soutC
  rw [View.read_writes_eq_canon _ _ _ (scoverC c i arg2 harg2 arg3 harg3 arg4 harg4 arg5 harg5 arg6 harg6 arg7 harg7 hc0 hc1 x0 x1 x2 x3 xs)]
  unfold kernelRunC
  dsimp only
  sl_unfold_words
  rw [View.canon_unit_zero (S := S1x1) hz]
  simp only [View.readAt_eq_ld, harg2.read_unread, harg3.read_unread, harg4.read_unread, harg5.read_unread, harg7.read_unread, View.ld_unit_zero (S := S1024) hz1, View.ld_unit_zero (S := S1x1) hz]

/-- and copies that new accumulator into the output's staging buffer. -/
theorem outC_eq (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i) (x0 : Vec F S1024 .f32) (x1 : Vec F S1024 .i32) (x2 : Vec F S1024 .f32) (x3 : Vec F S1024 .i32) (xs : Vec F S1x1 .f32) :
    outC c i arg2 harg2 arg3 harg3 arg4 harg4 arg5 harg5 arg6 harg6 arg7 harg7 hc0 hc1 x0 x1 x2 x3 xs = k0_pay1 (k0_pay3 x0 x2 x1 x3 xs) := by
  unfold outC
  rw [View.read_writes_eq_canon _ _ _ (coverC c i arg2 harg2 arg3 harg3 arg4 harg4 arg5 harg5 arg6 harg6 arg7 harg7 hc0 hc1 x0 x1 x2 x3 xs)]
  unfold kernelRunC
  dsimp only
  sl_unfold_words
  rw [View.canon_unit_zero (S := S1x1) hz, View.readCov_unit_zero (S := S1x1) _ hz]
  simp only [View.readAt_eq_ld, harg2.read_unread, harg3.read_unread, harg4.read_unread, harg5.read_unread, harg7.read_unread, View.ld_unit_zero (S := S1024) hz1, View.ld_unit_zero (S := S1x1) hz]

/-! ## The input blocks, by position

The grid is 16 × 16, the second coordinate the faster: point `t` is tile row `t / 16`, tile column `t % 16`.  The
first pair of windows (scores, labels) follows the row, the second pair the column. -/

theorem idx0 : ∀ t : Fin grid0.N, win0_0.index t 0 = t.val / 16 := by decide +kernel
theorem idx1 : ∀ t : Fin grid0.N, win0_1.index t 0 = t.val / 16 := by decide +kernel
theorem idx2 : ∀ t : Fin grid0.N, win0_2.index t 0 = t.val % 16 := by decide +kernel
theorem idx3 : ∀ t : Fin grid0.N, win0_3.index t 0 = t.val % 16 := by decide +kernel

/-- The tile row and the tile column of grid point `t`. -/
def rowOf (t : Fin cfg0.N) : Fin 16 := ⟨t.val / 16, by have h := t.isLt; have hN : cfg0.N = 256 := N_0; omega⟩
def colOf (t : Fin cfg0.N) : Fin 16 := ⟨t.val % 16, Nat.mod_lt _ (by decide)⟩

/-- The first score block at point `t` is the scores' block `t / 16`. -/
theorem iblk0_apply (c : Dev nD) (t : Fin cfg0.N) (p : Fin 1024) :
    (iblk m c 0 t : Vec F S1024 .f32) (ix1 p) = m ((c : Thread nD τ).loc main_arg0) (ix1 (Cert.Hinge.at16 (rowOf t) p)) := by
  unfold iblk
  rw [View.read_apply]
  show V m c main_arg0 _ = m ((c : Thread nD τ).loc main_arg0) _
  congr 1
  funext a
  apply Fin.ext
  match a with
  | ⟨0, _⟩ => show win0_0.index t 0 * 1024 + 1 * p.val = 1024 * (t.val / 16) + p.val; rw [idx0]; omega

/-- The first label block at point `t` is the labels' block `t / 16`. -/
theorem iblk1_apply (c : Dev nD) (t : Fin cfg0.N) (p : Fin 1024) :
    (iblk m c 1 t : Vec F S1024 .i32) (ix1 p) = m ((c : Thread nD τ).loc main_arg1) (ix1 (Cert.Hinge.at16 (rowOf t) p)) := by
  unfold iblk
  rw [View.read_apply]
  show V m c main_arg1 _ = m ((c : Thread nD τ).loc main_arg1) _
  congr 1
  funext a
  apply Fin.ext
  match a with
  | ⟨0, _⟩ => show win0_1.index t 0 * 1024 + 1 * p.val = 1024 * (t.val / 16) + p.val; rw [idx1]; omega

/-- The second score block at point `t` is the scores' block `t % 16`. -/
theorem iblk2_apply (c : Dev nD) (t : Fin cfg0.N) (p : Fin 1024) :
    (iblk m c 2 t : Vec F S1024 .f32) (ix1 p) = m ((c : Thread nD τ).loc main_arg0) (ix1 (Cert.Hinge.at16 (colOf t) p)) := by
  unfold iblk
  rw [View.read_apply]
  show V m c main_arg0 _ = m ((c : Thread nD τ).loc main_arg0) _
  congr 1
  funext a
  apply Fin.ext
  match a with
  | ⟨0, _⟩ => show win0_2.index t 0 * 1024 + 1 * p.val = 1024 * (t.val % 16) + p.val; rw [idx2]; omega

/-- The second label block at point `t` is the labels' block `t % 16`. -/
theorem iblk3_apply (c : Dev nD) (t : Fin cfg0.N) (p : Fin 1024) :
    (iblk m c 3 t : Vec F S1024 .i32) (ix1 p) = m ((c : Thread nD τ).loc main_arg1) (ix1 (Cert.Hinge.at16 (colOf t) p)) := by
  unfold iblk
  rw [View.read_apply]
  show V m c main_arg1 _ = m ((c : Thread nD τ).loc main_arg1) _
  congr 1
  funext a
  apply Fin.ext
  match a with
  | ⟨0, _⟩ => show win0_3.index t 0 * 1024 + 1 * p.val = 1024 * (t.val % 16) + p.val; rw [idx3]; omega

-- The accumulator is opened through its case equations only, never by computing it.
attribute [local irreducible] accAt

/-! ## The output array at the end -/

/-- At the last point the output's staging buffer receives the accumulator that point leaves. -/
theorem outAt_last (c : Dev nD) (t : Fin cfg0.N) (h0 : ¬t.val = 0) (h1 : t.val = 255) :
    outAt m c t = accAt m c t.val t.isLt := by
  rw [outAt_C m c t h0 h1, accAt_C m c t h0 h1]
  exact (outC_eq c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (accAt m c (t.val - 1) (Nat.lt_of_le_of_lt (Nat.sub_le _ _) t.isLt))).trans
    (soutC_eq c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (accAt m c (t.val - 1) (Nat.lt_of_le_of_lt (Nat.sub_le _ _) t.isLt))).symm

/-- The last grid point. -/
abbrev tLast : Fin cfg0.N := ⟨255, by rw [show cfg0.N = 256 from N_0]; decide⟩

/-- The result: the accumulator after the last point, as contents of the output array (its one block is the array). -/
abbrev result (c : Dev nD) : Buf (Elt F) ((c : Thread nD τ).loc main_v0) := accAt m c 255 (by rw [show cfg0.N = 256 from N_0]; decide)

/-- The output window's one block is the whole output array: cut at the last point, any contents of the block read back
    as themselves. -/
theorem cut_last (c : Dev nD) (R : Buf (Elt F) ((c : Thread nD τ).loc main_v0)) :
    (cfg0.win 4).cut (grid0.coords tLast) R = ((cfg0.win 4).blk tLast).view.read (Elt F) R := by
  have hz' : (fun a => win0_4.index tLast a * main_v0.ty.shape.size a) = fun _ => 0 := funext fun a => by fin_cases a <;> decide +kernel
  exact (Memref.read_access_unit_zero (Elt F) main_v0 hz' (fun a => by rw [congrFun hz' a]; simp) R).symm

/-- The one write-back, at the last point, writes it. -/
theorem flushed_eq (c : Dev nD) (t : Fin cfg0.N) (hf : (cfg0.win 4).flush t = true) :
    (dats m 0 c).flushed 4 t = ((cfg0.win 4).blk t).view.read (Elt F) (result m c) := by
  have hN : cfg0.N = 256 := N_0
  have h255 : t.val = 255 := by have := (flush0_4 t).mp hf; have := t.isLt; omega
  obtain rfl : t = tLast := Fin.ext h255
  show (cfg0.win 4).cut (grid0.coords tLast) ((dats m 0 c).after 4 tLast) = _
  rw [after4, outAt_last m c tLast (by decide) rfl]
  exact cut_last c (result m c)

/-- So the output array ends holding the accumulator after the last point. -/
theorem final4 (c : Dev nD) : (dats m 0 c).arrAt 4 cfg0.N = result m c :=
  (dats m 0 c).arrAt_eq_of_cover 4 (result m c) (flushed_eq m c) fun i =>
    ⟨tLast, (flush0_4 tLast).mpr (by decide), by
      show i ∈ ((View.whole main_v0).slice (win0_4.rect tLast)).set
      rw [View.set_slice_whole, Rect.mem_set_unit]
      intro a
      have h0 : (i 0 : Nat) < 1 := (i 0).isLt
      have h1 : (i 1 : Nat) < 1 := (i 1).isLt
      match a with
      | ⟨0, _⟩ => show win0_4.index tLast 0 * win0_4.size 0 ≤ (i 0 : Nat) ∧ (i 0 : Nat) < win0_4.index tLast 0 * win0_4.size 0 + win0_4.xsize (grid0.coords tLast) 0
                  rw [show win0_4.index tLast 0 * win0_4.size 0 = 0 from by decide +kernel, show win0_4.xsize (grid0.coords tLast) 0 = 1 from by decide +kernel]; omega
      | ⟨1, _⟩ => show win0_4.index tLast 1 * win0_4.size 1 ≤ (i 1 : Nat) ∧ (i 1 : Nat) < win0_4.index tLast 1 * win0_4.size 1 + win0_4.xsize (grid0.coords tLast) 1
                  rw [show win0_4.index tLast 1 * win0_4.size 1 = 0 from by decide +kernel, show win0_4.xsize (grid0.coords tLast) 1 = 1 from by decide +kernel]; omega⟩

/-! ## The accumulator point by point, at the extended reals -/

section AtIdeal
variable (mI : (ℓ : Loc nD τ sig) → Buf (Elt Ideal) ℓ)

/-- The scores and the labels, by position. -/
def yp (c : Dev nD) : Fin 16384 → EReal := fun a => mI ((c : Thread nD τ).loc main_arg0) (ix1 a)
def yt (c : Dev nD) : Fin 16384 → BitVec 32 := fun a => mI ((c : Thread nD τ).loc main_arg1) (ix1 a)

/-- The sum over the pairs of the four blocks of point `t` is the tile (t / 16, t % 16) of the specification. -/
theorem tile_blocks (c : Dev nD) (t : Fin cfg0.N) :
    ∑ p : Fin 1024, ∑ q : Fin 1024, Cert.Hinge.pair ((iblk mI c 0 t : Vec Ideal S1024 .f32) (ix1 p)) ((iblk mI c 2 t : Vec Ideal S1024 .f32) (ix1 q))
        ((iblk mI c 1 t : Vec Ideal S1024 .i32) (ix1 p)) ((iblk mI c 3 t : Vec Ideal S1024 .i32) (ix1 q))
      = Cert.Hinge.tile (yp mI c) (yt mI c) (rowOf t) (colOf t) := by
  unfold Cert.Hinge.tile
  refine Finset.sum_congr rfl fun p _ => Finset.sum_congr rfl fun q _ => ?_
  rw [iblk0_apply, iblk1_apply, iblk2_apply, iblk3_apply]
  rfl

/-- The first point leaves the first tile (added to the zero it stored). -/
theorem accAt_first (c : Dev nD) (t : Fin cfg0.N) (h0 : t.val = 0) (i : S1x1.Idx) :
    accAt mI c t.val t.isLt i = 0 + Cert.Hinge.tile (yp mI c) (yt mI c) (rowOf t) (colOf t) := by
  have h1 : ¬t.val = 255 := by omega
  rw [accAt_A mI c t h0 h1]
  refine (congrFun (soutA_eq c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk mI c 0 t) (iblk mI c 1 t) (iblk mI c 2 t) (iblk mI c 3 t)) i).trans ?_
  rw [Payload.pay1_eq, Payload.pay3_apply, Payload.pay2_apply]
  exact congrArg (fun z => (0 : EReal) + z) (tile_blocks mI c t)

/-- Every later point adds its tile to what the point before left. -/
theorem accAt_pos (c : Dev nD) (t : Fin cfg0.N) (h0 : ¬t.val = 0) (i : S1x1.Idx) :
    accAt mI c t.val t.isLt i
      = accAt mI c (t.val - 1) (Nat.lt_of_le_of_lt (Nat.sub_le _ _) t.isLt) i + Cert.Hinge.tile (yp mI c) (yt mI c) (rowOf t) (colOf t) := by
  by_cases h1 : t.val = 255
  · rw [accAt_C mI c t h0 h1]
    refine (congrFun (soutC_eq c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk mI c 0 t) (iblk mI c 1 t) (iblk mI c 2 t) (iblk mI c 3 t) (accAt mI c (t.val - 1) (Nat.lt_of_le_of_lt (Nat.sub_le _ _) t.isLt))) i).trans ?_
    rw [Payload.pay1_eq, Payload.pay3_apply]
    exact congrArg (fun z => (accAt mI c (t.val - 1) (Nat.lt_of_le_of_lt (Nat.sub_le _ _) t.isLt)) i + z) (tile_blocks mI c t)
  · rw [accAt_B mI c t h0 h1]
    refine (congrFun (soutB_eq c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk mI c 0 t) (iblk mI c 1 t) (iblk mI c 2 t) (iblk mI c 3 t) (accAt mI c (t.val - 1) (Nat.lt_of_le_of_lt (Nat.sub_le _ _) t.isLt))) i).trans ?_
    rw [Payload.pay1_eq, Payload.pay3_apply]
    exact congrArg (fun z => (accAt mI c (t.val - 1) (Nat.lt_of_le_of_lt (Nat.sub_le _ _) t.isLt)) i + z) (tile_blocks mI c t)

/-- The accumulator after `k` points, at its one index; nothing before the first point. -/
def accSeq (c : Dev nD) (i : S1x1.Idx) (k : ℕ) : EReal :=
  if h : 0 < k ∧ k ≤ cfg0.N then accAt mI c (k - 1) (by omega) i else 0

theorem accSeq_zero (c : Dev nD) (i : S1x1.Idx) : accSeq mI c i 0 = 0 := by
  unfold accSeq; exact dif_neg (fun h => absurd h.1 (lt_irrefl 0))

theorem accSeq_succ (c : Dev nD) (i : S1x1.Idx) (k : ℕ) (hk : k < cfg0.N) : accSeq mI c i (k + 1) = accAt mI c k hk i := by
  unfold accSeq
  rw [dif_pos ⟨Nat.succ_pos k, hk⟩]
  rfl

/-- After the last point the accumulator holds the sum over all ordered pairs. -/
theorem accAt_total (c : Dev nD) (i : S1x1.Idx) :
    accAt mI c 255 (by rw [show cfg0.N = 256 from N_0]; decide) i = Cert.Hinge.total (yp mI c) (yt mI c) := by
  have hN : cfg0.N = 256 := N_0
  have hf := Cert.Hinge.fold_tiles (yp mI c) (yt mI c) 256 (le_refl _) (accSeq mI c i) (accSeq_zero mI c i)
    (fun k hk => by
      have hk' : k < cfg0.N := by omega
      rw [accSeq_succ mI c i k hk']
      by_cases h0 : k = 0
      · subst h0
        rw [accSeq_zero]
        exact accAt_first mI c ⟨0, hk'⟩ rfl i
      · have hs : accSeq mI c i k = accAt mI c (k - 1) (by omega) i := by
          unfold accSeq; exact dif_pos ⟨Nat.pos_of_ne_zero h0, by omega⟩
        rw [hs]
        exact accAt_pos mI c ⟨k, hk'⟩ h0 i)
  rw [← hf]
  exact (accSeq_succ mI c i 255 (by omega)).symm

/-- So the output array ends holding, at its one index, the sum over all ordered pairs. -/
theorem final4_val (c : Dev nD) (i : S1x1.Idx) :
    (dats mI 0 c).arrAt 4 cfg0.N i = Cert.Hinge.total (yp mI c) (yt mI c) := by
  rw [final4 mI c]
  exact accAt_total mI c i

end AtIdeal

end Cert.KernelIdeal.Hand

end
-- ==== Proof.KBBase.lean ====
/-
  What every part of the frame proof of this program is stated over: the contents of the device's buffers when
  the region is entered, @main as "the region, then host operations", each window's block at a grid point, the
  two conditions the body branches on (the first grid point, the last grid point), decided over the grid, and
  the memrefs the body is called with.
-/
import proofs.«154038_j90666759619072_2_alg».proof.Proof.Gen.Kernel.Launch
import proofs.«154038_j90666759619072_2_alg».proof.Proof.Gen.Kernel.Skeleton
import proofs.«154038_j90666759619072_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- The device's buffer contents when the region is entered: no host operation comes before it, so the launch contents. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor

/-- @main is the region followed by the two stretches of host operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1]) :=
  Pipeline.hmain_around cfgs 0 defs₀ 𝒱₀ m main [] [hostOps1, hostOps1_1] (by simp only [List.Forall])
    (by simp only [List.Forall]) main_chain

theorem V_main_arg0 (c : Dev nD) : V m c main_arg0 = m ((c : Thread nD τ).loc main_arg0) := rfl
theorem V_main_arg1 (c : Dev nD) : V m c main_arg1 = m ((c : Thread nD τ).loc main_arg1) := rfl

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's two conditions -/

/-- "This is the first grid point" as the body computes it. -/
abbrev condFirst (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1
theorem hcondFirst : ∀ t : Fin cfg0.N, condFirst (grid0.coords t) ↔ t.val = 0 :=
  (by decide +kernel : ∀ t : Fin grid0.N, condFirst (grid0.coords t) ↔ t.val = 0)

/-- "This is the last grid point" as the body computes it. -/
abbrev condLast (i : grid0.Coords) : Prop := k0_cond2 i = 1#1
theorem hcondLast : ∀ t : Fin cfg0.N, condLast (grid0.coords t) ↔ t.val = 255 :=
  (by decide +kernel : ∀ t : Fin grid0.N, condLast (grid0.coords t) ↔ t.val = 255)

/-! ## Where the windows are idle -/

theorem liveAt0 : ∀ t : Fin cfg0.N, cfg0.idle 0 (grid0.coords t) = false := by decide +kernel
theorem liveAt1 : ∀ t : Fin cfg0.N, cfg0.idle 1 (grid0.coords t) = false := by decide +kernel
theorem liveAt2 : ∀ t : Fin cfg0.N, cfg0.idle 2 (grid0.coords t) = false := by decide +kernel
theorem liveAt3 : ∀ t : Fin cfg0.N, cfg0.idle 3 (grid0.coords t) = false := by decide +kernel
/-- Away from the last point the output window is idle and not written back. -/
theorem idleAt4 : ∀ t : Fin cfg0.N, ¬condLast (grid0.coords t) → cfg0.idle 4 (grid0.coords t) = true := by decide +kernel
theorem noFlush4 : ∀ t : Fin cfg0.N, ¬condLast (grid0.coords t) → (cfg0.win 4).flush t = false := by decide +kernel
theorem liveAt4 : ∀ t : Fin cfg0.N, condLast (grid0.coords t) → cfg0.idle 4 (grid0.coords t) = false := by decide +kernel

/-! ## The memrefs the body is called with -/

abbrev ms0 (t : Fin cfg0.N) : Memref sig .tc .vmem S1024 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x1 .f32 := win0_4.stage (cfg0.slots t 4)
abbrev hs4 (t : Fin cfg0.N) : (ms4 t).IsWhole := hstage0_4 ((cfg0.slots t 4).cast nbuf0_4)
/-- The scratch accumulator: a whole scoped buffer of the kernel's own. -/
abbrev scM : Memref sig .tc .vmem S1x1 .f32 := Memref.whole cc0_scratch0

/-- The invariant the launch hands the region, with the scratch as a memref owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

end Cert.Kernel.Hand

end
-- ==== Proof.KBRunA.lean ====
/-
  The kernel body run at the FIRST grid point (the accumulator is zeroed, then the tile's sum is added; nothing is copied out): on whole staging memrefs holding the four input
  blocks, the body runs to its end, leaves the inputs as they were, and leaves in the accumulator (and, at the last point,
  in the output's staging buffer) the stores it made, recorded as a list of pieces found while the body is run.
-/
import proofs.«154038_j90666759619072_2_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRunA (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i)
    (x0 : Vec F S1024 .f32) (x1 : Vec F S1024 .i32) (x2 : Vec F S1024 .f32) (x3 : Vec F S1024 .i32) :
    Σ' (L4 : List (View.Piece (Elt F) S1x1 .f32)), { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ d, owns (c : Thread nD τ) arg7 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, fun xi E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.KBRunB.lean ====
/-
  The kernel body run at a MIDDLE grid point (the tile's sum is added to the accumulator; nothing is copied out): on whole staging memrefs holding the four input
  blocks, the body runs to its end, leaves the inputs as they were, and leaves in the accumulator (and, at the last point,
  in the output's staging buffer) the stores it made, recorded as a list of pieces found while the body is run.
-/
import proofs.«154038_j90666759619072_2_alg».proof.Proof.KBRunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRunB (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i)
    (x0 : Vec F S1024 .f32) (x1 : Vec F S1024 .i32) (x2 : Vec F S1024 .f32) (x3 : Vec F S1024 .i32) (xs : Vec F S1x1 .f32) :
    Σ' (L4 : List (View.Piece (Elt F) S1x1 .f32)), { LS : List (View.Piece (Elt F) S1x1 .f32) //
      ∀ (xi : Vec F S1x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨[], ?_, fun xi E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact HS

end Cert.Kernel.Hand

end
-- ==== Proof.KBRunC.lean ====
/-
  The kernel body run at the LAST grid point (the tile's sum is added to the accumulator, which is then copied into the output's staging buffer): on whole staging memrefs holding the four input
  blocks, the body runs to its end, leaves the inputs as they were, and leaves in the accumulator (and, at the last point,
  in the output's staging buffer) the stores it made, recorded as a list of pieces found while the body is run.
-/
import proofs.«154038_j90666759619072_2_alg».proof.Proof.KBRunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
noncomputable def kernelRunC (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i)
    (x0 : Vec F S1024 .f32) (x1 : Vec F S1024 .i32) (x2 : Vec F S1024 .f32) (x3 : Vec F S1024 .i32) (xs : Vec F S1x1 .f32) :
    Σ' (L4 : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ owns (c : Thread nD τ) arg7 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f LS)) -∗ K ⟨⟩))
          ⊢ wp frame (wpE (defs₀ (F := F)) Variants.none c none) E (cc0__kernel i arg2 harg2 arg3 harg3 arg4 harg4 arg5 harg5 arg6 harg6 arg7 harg7) K } := by
  refine ⟨?_, ?_, fun E K => ?run⟩
  case run =>
    simp only [cc0__kernel_eq_skeleton]; unfold cc0__kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg2.eq_unread hf0; obtain rfl := harg3.eq_unread hf1; obtain rfl := harg4.eq_unread hf2; obtain rfl := harg5.eq_unread hf3; obtain rfl := harg7.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    iexists _; iexact HS

end Cert.Kernel.Hand

end
-- ==== Proof.KBFrame.lean ====
/-
  The accumulator point by point, the proof data of the pipeline, and the body obligation.

  After grid point n the scratch accumulator holds what the body's stores left there: at the first point the tile's
  sum added to the zero just stored, at every later point the tile's sum added to what the point before left.  The
  output's staging buffer is touched at the last point only, where it receives the accumulator.  The four input
  windows hold their blocks at every point (fetched there or not), and the two windows on each argument array hold
  that array at the two halves of the full share.
-/
import proofs.«154038_j90666759619072_2_alg».proof.Proof.KBRunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One staging buffer of the output window and the scratch, as views through which their contents are stated. -/
abbrev VO : View sig .tc .vmem S1x1 .f32 := (Memref.whole cc0_stg4_0 : Memref sig .tc .vmem S1x1 .f32).view
abbrev VS : View sig .tc .vmem S1x1 .f32 := scM.view

/-! ## What each case leaves -/

theorem scoverA (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i) (x0 : Vec F S1024 .f32) (x1 : Vec F S1024 .i32) (x2 : Vec F S1024 .f32) (x3 : Vec F S1024 .i32) (y : S1x1.Idx) :
    ∃ pc ∈ (kernelRunA c i arg2 harg2 arg3 harg3 arg4 harg4 arg5 harg5 arg6 harg6 arg7 harg7 hc0 hc1 x0 x1 x2 x3).2.1, y ∈ pc.1.set :=
  View.cover_of_tiledL (kernelRunA c i arg2 harg2 arg3 harg3 arg4 harg4 arg5 harg5 arg6 harg6 arg7 harg7 hc0 hc1 x0 x1 x2 x3).2.1 S1x1.size (by sl_kernel_rfl) y
/-- What the first point leaves in the accumulator. -/
def soutA (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : condFirst i) (hc1 : ¬condLast i) (x0 : Vec F S1024 .f32) (x1 : Vec F S1024 .i32) (x2 : Vec F S1024 .f32) (x3 : Vec F S1024 .i32) : Vec F S1x1 .f32 :=
  VS.read (Elt F) (VS.writes (Elt F) VS.junk (kernelRunA c i arg2 harg2 arg3 harg3 arg4 harg4 arg5 harg5 arg6 harg6 arg7 harg7 hc0 hc1 x0 x1 x2 x3).2.1)

theorem scoverB (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i) (x0 : Vec F S1024 .f32) (x1 : Vec F S1024 .i32) (x2 : Vec F S1024 .f32) (x3 : Vec F S1024 .i32) (xs : Vec F S1x1 .f32) (y : S1x1.Idx) :
    ∃ pc ∈ (kernelRunB c i arg2 harg2 arg3 harg3 arg4 harg4 arg5 harg5 arg6 harg6 arg7 harg7 hc0 hc1 x0 x1 x2 x3 xs).2.1, y ∈ pc.1.set :=
  View.cover_of_tiledL (kernelRunB c i arg2 harg2 arg3 harg3 arg4 harg4 arg5 harg5 arg6 harg6 arg7 harg7 hc0 hc1 x0 x1 x2 x3 xs).2.1 S1x1.size (by sl_kernel_rfl) y
/-- What a middle point leaves in the accumulator. -/
def soutB (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : ¬condLast i) (x0 : Vec F S1024 .f32) (x1 : Vec F S1024 .i32) (x2 : Vec F S1024 .f32) (x3 : Vec F S1024 .i32) (xs : Vec F S1x1 .f32) : Vec F S1x1 .f32 :=
  VS.read (Elt F) (VS.writes (Elt F) VS.junk (kernelRunB c i arg2 harg2 arg3 harg3 arg4 harg4 arg5 harg5 arg6 harg6 arg7 harg7 hc0 hc1 x0 x1 x2 x3 xs).2.1)

theorem scoverC (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i) (x0 : Vec F S1024 .f32) (x1 : Vec F S1024 .i32) (x2 : Vec F S1024 .f32) (x3 : Vec F S1024 .i32) (xs : Vec F S1x1 .f32) (y : S1x1.Idx) :
    ∃ pc ∈ (kernelRunC c i arg2 harg2 arg3 harg3 arg4 harg4 arg5 harg5 arg6 harg6 arg7 harg7 hc0 hc1 x0 x1 x2 x3 xs).2.1, y ∈ pc.1.set :=
  View.cover_of_tiledL (kernelRunC c i arg2 harg2 arg3 harg3 arg4 harg4 arg5 harg5 arg6 harg6 arg7 harg7 hc0 hc1 x0 x1 x2 x3 xs).2.1 S1x1.size (by sl_kernel_rfl) y
/-- What the last point leaves in the accumulator, -/
def soutC (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i) (x0 : Vec F S1024 .f32) (x1 : Vec F S1024 .i32) (x2 : Vec F S1024 .f32) (x3 : Vec F S1024 .i32) (xs : Vec F S1x1 .f32) : Vec F S1x1 .f32 :=
  VS.read (Elt F) (VS.writes (Elt F) VS.junk (kernelRunC c i arg2 harg2 arg3 harg3 arg4 harg4 arg5 harg5 arg6 harg6 arg7 harg7 hc0 hc1 x0 x1 x2 x3 xs).2.1)
theorem coverC (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i) (x0 : Vec F S1024 .f32) (x1 : Vec F S1024 .i32) (x2 : Vec F S1024 .f32) (x3 : Vec F S1024 .i32) (xs : Vec F S1x1 .f32) (y : S1x1.Idx) :
    ∃ pc ∈ (kernelRunC c i arg2 harg2 arg3 harg3 arg4 harg4 arg5 harg5 arg6 harg6 arg7 harg7 hc0 hc1 x0 x1 x2 x3 xs).1, y ∈ pc.1.set :=
  View.cover_of_tiledL (kernelRunC c i arg2 harg2 arg3 harg3 arg4 harg4 arg5 harg5 arg6 harg6 arg7 harg7 hc0 hc1 x0 x1 x2 x3 xs).1 S1x1.size (by sl_kernel_rfl) y
/-- and in the output's staging buffer. -/
def outC (c : Dev nD) (i : grid0.Coords) (arg2 : Memref sig .tc .vmem S1024 .f32) (harg2 : arg2.IsWhole) (arg3 : Memref sig .tc .vmem S1024 .i32) (harg3 : arg3.IsWhole) (arg4 : Memref sig .tc .vmem S1024 .f32) (harg4 : arg4.IsWhole) (arg5 : Memref sig .tc .vmem S1024 .i32) (harg5 : arg5.IsWhole) (arg6 : Memref sig .tc .vmem S1x1 .f32) (harg6 : arg6.IsWhole) (arg7 : Memref sig .tc .vmem S1x1 .f32) (harg7 : arg7.IsWhole) (hc0 : ¬condFirst i) (hc1 : condLast i) (x0 : Vec F S1024 .f32) (x1 : Vec F S1024 .i32) (x2 : Vec F S1024 .f32) (x3 : Vec F S1024 .i32) (xs : Vec F S1x1 .f32) : Vec F S1x1 .f32 :=
  VO.read (Elt F) (VO.writes (Elt F) VO.junk (kernelRunC c i arg2 harg2 arg3 harg3 arg4 harg4 arg5 harg5 arg6 harg6 arg7 harg7 hc0 hc1 x0 x1 x2 x3 xs).1)

/-! ## The accumulator after each point -/

theorem not_first_succ (n : ℕ) (hn : n + 1 < cfg0.N) : ¬condFirst (grid0.coords ⟨n + 1, hn⟩) :=
  fun h => absurd ((hcondFirst ⟨n + 1, hn⟩).mp h) (Nat.succ_ne_zero n)
theorem first_zero (hn : 0 < cfg0.N) : condFirst (grid0.coords ⟨0, hn⟩) := (hcondFirst ⟨0, hn⟩).mpr rfl
theorem not_last_zero (hn : 0 < cfg0.N) : ¬condLast (grid0.coords ⟨0, hn⟩) :=
  fun h => absurd ((hcondLast ⟨0, hn⟩).mp h) (show ¬(0 : ℕ) = 255 by decide)

/-- What the scratch accumulator holds after the body at position `n`. -/
def accAt (c : Dev nD) : (n : ℕ) → n < cfg0.N → Vec F S1x1 .f32
  | 0, hn => soutA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) scM (Memref.isWhole_whole _) (first_zero hn) (not_last_zero hn) (iblk m c 0 ⟨0, hn⟩) (iblk m c 1 ⟨0, hn⟩) (iblk m c 2 ⟨0, hn⟩) (iblk m c 3 ⟨0, hn⟩)
  | n + 1, hn =>
    if h1 : n + 1 = 255 then
      soutC c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (not_first_succ n hn) ((hcondLast ⟨n + 1, hn⟩).mpr h1) (iblk m c 0 ⟨n + 1, hn⟩) (iblk m c 1 ⟨n + 1, hn⟩) (iblk m c 2 ⟨n + 1, hn⟩) (iblk m c 3 ⟨n + 1, hn⟩) (accAt c n (Nat.lt_of_succ_lt hn))
    else
      soutB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) scM (Memref.isWhole_whole _) (not_first_succ n hn) (fun h => h1 ((hcondLast ⟨n + 1, hn⟩).mp h)) (iblk m c 0 ⟨n + 1, hn⟩) (iblk m c 1 ⟨n + 1, hn⟩) (iblk m c 2 ⟨n + 1, hn⟩) (iblk m c 3 ⟨n + 1, hn⟩) (accAt c n (Nat.lt_of_succ_lt hn))

theorem accAt_A (c : Dev nD) (t : Fin cfg0.N) (h0 : t.val = 0) (h1 : ¬t.val = 255) :
    accAt m c t.val t.isLt = soutA c (grid0.coords t) (ms0 t) (hs0 t) (ms1 t) (hs1 t) (ms2 t) (hs2 t) (ms3 t) (hs3 t) (ms4 t) (hs4 t) scM (Memref.isWhole_whole _) ((hcondFirst t).mpr h0) (fun h => h1 ((hcondLast t).mp h)) (iblk m c 0 t) (iblk m c 1 t) (iblk m c 2 t) (iblk m c 3 t) := by
  obtain ⟨n, hn⟩ := t
  cases n with
  | zero => rfl
  | succ n => exact absurd h0 (Nat.succ_ne_zero n)

theorem accAt_B (c : Dev nD) (t : Fin cfg0.N) (h0 : ¬t.val = 0) (h1 : ¬t.val = 255) :
    accAt m c t.val t.isLt = soutB c (grid0.coords t) (ms0 t) (hs0 t) (ms1 t) (hs1 t) (ms2 t) (hs2 t) (ms3 t) (hs3 t) (ms4 t) (hs4 t) scM (Memref.isWhole_whole _) (fun h => h0 ((hcondFirst t).mp h)) (fun h => h1 ((hcondLast t).mp h)) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => exact (dif_neg h1).trans rfl

theorem accAt_C (c : Dev nD) (t : Fin cfg0.N) (h0 : ¬t.val = 0) (h1 : t.val = 255) :
    accAt m c t.val t.isLt = soutC c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (accAt m c (t.val - 1) (Nat.lt_of_le_of_lt (Nat.sub_le _ _) t.isLt)) := by
  obtain ⟨n, hn⟩ := t
  cases n with
  | zero => exact absurd rfl h0
  | succ n => exact (dif_pos h1).trans rfl

/-- What the output's staging buffer holds after the body: at the last point what that point stores; elsewhere the buffer is idle and its contents are not named. -/
def outAt (c : Dev nD) (t : Fin cfg0.N) : Vec F S1x1 .f32 :=
  if h1 : t.val = 255 then
    if h0 : t.val = 0 then accAt m c t.val t.isLt
    else outC c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (accAt m c (t.val - 1) (Nat.lt_of_le_of_lt (Nat.sub_le _ _) t.isLt))
  else accAt m c t.val t.isLt

theorem outAt_C (c : Dev nD) (t : Fin cfg0.N) (h0 : ¬t.val = 0) (h1 : t.val = 255) :
    outAt m c t = outC c (grid0.coords t) (ms0 t) (hs0 t) (ms1 t) (hs1 t) (ms2 t) (hs2 t) (ms3 t) (hs3 t) (ms4 t) (hs4 t) scM (Memref.isWhole_whole _) (fun h => h0 ((hcondFirst t).mp h)) ((hcondLast t).mpr h1) (iblk m c 0 t) (iblk m c 1 t) (iblk m c 2 t) (iblk m c 3 t) (accAt m c (t.val - 1) (Nat.lt_of_le_of_lt (Nat.sub_le _ _) t.isLt)) := by
  unfold outAt; rw [dif_pos h1, dif_neg h0]

/-- The region invariant before position `n`: before the first point the launch's (the scratch at anything); afterwards
    the scratch at what the point before left, and the generator register at some state. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM fullShare (accAt m c n hn)) ∗ (∃ r, prngReg c r)) := rfl
theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
  Φ t := PhiS m c t.val (Nat.le_of_lt_succ t.isLt)
  q w := match w with
    | ⟨0, _⟩ => fullShare.left
    | ⟨1, _⟩ => fullShare.left
    | ⟨2, _⟩ => fullShare.right
    | ⟨3, _⟩ => fullShare.right
    | ⟨4, _⟩ => fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = outAt m c t := by dsimp only [dats]

/-- Each input's current staging buffer holds its block at every point, fetched there or not. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem live_in (c : Dev nD) (t : Fin cfg0.N) :
    (dats m 0 c).leavesExact 0 t = owns (c : Thread nD τ) (ms0 t) fullShare (iblk m c 0 t)
    ∧ (dats m 0 c).leavesExact 1 t = owns (c : Thread nD τ) (ms1 t) fullShare (iblk m c 1 t)
    ∧ (dats m 0 c).leavesExact 2 t = owns (c : Thread nD τ) (ms2 t) fullShare (iblk m c 2 t)
    ∧ (dats m 0 c).leavesExact 3 t = owns (c : Thread nD τ) (ms3 t) fullShare (iblk m c 3 t) := by
  refine ⟨?_, ?_, ?_, ?_⟩
  · unfold Dat.leavesExact; rw [liveAt0 t, after0]
  · unfold Dat.leavesExact; rw [liveAt1 t, after1]
  · unfold Dat.leavesExact; rw [liveAt2 t, after2]
  · unfold Dat.leavesExact; rw [liveAt3 t, after3]

end Cert.Kernel.Hand

end
-- ==== Proof.KBBody.lean ====
/-
  The body obligation: at every grid point the body, called on the windows' current staging buffers holding the four
  input blocks, leaves the inputs in place, the accumulator at this point's contents, and the output's staging buffer
  untouched except at the last point, where it receives the accumulator.  The point's case (first, middle, last) is read
  off its position; each case is that case's run.
-/
import proofs.«154038_j90666759619072_2_alg».proof.Proof.KBFrame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [(live_in m c t).1, (live_in m c t).2.1, (live_in m c t).2.2.1, (live_in m c t).2.2.2]
  have hN : t.val < 256 := lt_of_lt_of_eq t.isLt (show cfg0.N = 256 from N_0)
  by_cases h0 : t.val = 0
  · have h1 : ¬t.val = 255 := by omega
    rw [Dat.leavesExact_idle (dats m 0 c) 4 t (idleAt4 t (fun h => h1 ((hcondLast t).mp h))) (noFlush4 t (fun h => h1 ((hcondLast t).mp h)))]
    rw [accAt_A m c t h0 h1]
    unfold soutA; (try dsimp only)
    rw [PhiS_castSucc m c t, PhiS_zero m c _ _ h0, PhiA0_eq]
    iintro ⟨⟨HS, Hg⟩, Ho, ⟨%d0, H0⟩, ⟨%d1, H1⟩, ⟨%d2, H2⟩, ⟨%d3, H3⟩, ⟨%d4, H4⟩⟩
    iapply ((kernelRunA c (grid0.coords t) _ _ _ _ _ _ _ _ _ _ _ _ ((hcondFirst t).mpr h0) (fun h => h1 ((hcondLast t).mp h)) (iblk m c 0 t) (iblk m c 1 t) (iblk m c 2 t) (iblk m c 3 t)).2.2 _ Set.univ _)
    isplitl [H0]; · iexact H0
    isplitl [H1]; · iexact H1
    isplitl [H2]; · iexact H2
    isplitl [H3]; · iexact H3
    isplitl [H4]; · iexact H4
    isplitl [HS]; · iexact HS
    iintro ⟨H0, H1, H2, H3, H4, ⟨%es, HS⟩⟩
    isplitl [HS Hg]
    · isplitl [HS]
      · unfold owns; iexists _; isplitr
        swap; · iexact HS
        ipureintro; exact View.read_writes_of_cover _ _ _ _ _ (scoverA c _ _ _ _ _ _ _ _ _ _ _ _ _ _ _ _ _ _ _)
      iexact Hg
    isplitl [Ho]; · iexact Ho
    isplitl [H0]; · iexact H0
    isplitl [H1]; · iexact H1
    isplitl [H2]; · iexact H2
    isplitl [H3]; · iexact H3
    iexists _; iexact H4
  · by_cases h1 : t.val = 255
    · rw [show (dats m 0 c).leavesExact 4 t = owns (c : Thread nD τ) (ms4 t) fullShare ((dats m 0 c).after 4 t) from by
        unfold Dat.leavesExact; rw [liveAt4 t ((hcondLast t).mpr h1)], after4]
      rw [outAt_C m c t h0 h1, accAt_C m c t h0 h1]
      unfold outC soutC; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply ((kernelRunC c (grid0.coords t) _ _ _ _ _ _ _ _ _ _ _ _ (fun h => h0 ((hcondFirst t).mp h)) ((hcondLast t).mpr h1) (iblk m c 0 t) (iblk m c 1 t) (iblk m c 2 t) (iblk m c 3 t) _).2.2 Set.univ _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, ⟨%e4, H4⟩, ⟨%es, HS⟩⟩
      isplitl [HS Hg]
      · isplitl [HS]
        · unfold owns; iexists _; isplitr
          swap; · iexact HS
          ipureintro; exact View.read_writes_of_cover _ _ _ _ _ (scoverC c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (coverC c _ _ _ _ _ _ _ _ _ _ _ _ _ _ _ _ _ _ _ _)
    · rw [Dat.leavesExact_idle (dats m 0 c) 4 t (idleAt4 t (fun h => h1 ((hcondLast t).mp h))) (noFlush4 t (fun h => h1 ((hcondLast t).mp h)))]
      rw [accAt_B m c t h0 h1]
      unfold soutB; (try dsimp only)
      rw [PhiS_castSucc m c t, PhiS_pos m c _ _ h0]
      iintro ⟨⟨HS, Hg⟩, Ho, ⟨%d0, H0⟩, ⟨%d1, H1⟩, ⟨%d2, H2⟩, ⟨%d3, H3⟩, ⟨%d4, H4⟩⟩
      iapply ((kernelRunB c (grid0.coords t) _ _ _ _ _ _ _ _ _ _ _ _ (fun h => h0 ((hcondFirst t).mp h)) (fun h => h1 ((hcondLast t).mp h)) (iblk m c 0 t) (iblk m c 1 t) (iblk m c 2 t) (iblk m c 3 t) _).2.2 _ Set.univ _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, ⟨%es, HS⟩⟩
      isplitl [HS Hg]
      · isplitl [HS]
        · unfold owns; iexists _; isplitr
          swap; · iexact HS
          ipureintro; exact View.read_writes_of_cover _ _ _ _ _ (scoverB c _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      iexists _; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulator's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS, Hg⟩
  isplitl [HS]
  · iexists _; iexact HS
  iexact Hg

theorem hout (c : Dev nD) : (dats m 0 c).Φ (Fin.last cfg0.N) ⊢ Pipeline.ΦA spec0 c :=
  Phi_out m c _ (by rw [Fin.val_last]; have : cfg0.N = 256 := N_0; omega)

end Cert.Kernel.Hand

end
-- ==== Proof.KBLaunch.lean ====
/-
  The launch of the kernel region when two input windows read one array, with host operations after the region.
  Each array read by two windows is split between them by shares when the region is entered and joined back when it
  is left; the host operations after the region then run over whole buffers, and the buffers are split again for
  the region's own account of its arrays. The statement is generic in the proof data and in the float model.
-/
import proofs.«154038_j90666759619072_2_alg».proof.Proof.KBBase

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The device's buffers when the region is left: the output array at what the proof data computes, every other
    buffer as the region found it. -/
def Wx (dats : (p : Fin 1) → (c : Dev nD) → Dat τ (Elt F) Unit ℕ (UR sig nD τ) ℕ (cfgs p) c) (c : Dev nD) :
    Valuation τ sig (Elt F) :=
  Function.update (V0 m c) (Proc.devRef .tc main_v0) ((dats 0 c).arrAt 4 cfg0.N)

theorem Wx_v0 (dats : (p : Fin 1) → (c : Dev nD) → Dat τ (Elt F) Unit ℕ (UR sig nD τ) ℕ (cfgs p) c) (c : Dev nD) :
    Wx m dats c (Proc.devRef .tc main_v0) = (dats 0 c).arrAt 4 cfg0.N := by
  unfold Wx; exact Function.update_self _ _ _

theorem Wx_of_ne (dats : (p : Fin 1) → (c : Dev nD) → Dat τ (Elt F) Unit ℕ (UR sig nD τ) ℕ (cfgs p) c) (c : Dev nD)
    (b : Ref sig .tc) (hb : b ≠ main_v0) : Wx m dats c (Proc.devRef .tc b) = m ((c.tc : Thread nD τ).loc b) := by
  unfold Wx
  rw [Function.update_of_ne (StableHlo.devRef_ne_of_ne hb)]
  rfl

/-! ## The arrays, buffer by buffer -/

/-- The distinct buffers behind the windows' arrays are the two arguments and the output. -/
theorem arrBufs0_eq (c : Dev nD) (W : (b : Ref sig .tc) → Buf (Elt F) ((c.tc : Thread nD τ).loc b)) :
    (Pipeline.arrBufs (Ix := Unit) (Name := ℕ) (U := UR sig nD τ) (Lvl := ℕ) spec0 c W : sProp 𝕄)
      = iprop((((c.tc : Thread nD τ).loc main_arg0) ↦{fullShare} W main_arg0) ∗ (((c.tc : Thread nD τ).loc main_arg1) ↦{fullShare} W main_arg1)
          ∗ (((c.tc : Thread nD τ).loc main_v0) ↦{fullShare} W main_v0)) := by
  unfold Pipeline.arrBufs
  exact bigSep_eq_bigSepL_of_eq [main_arg0, main_arg1, main_v0] (by decide) (by decide) _

section Shares

variable (dats : (p : Fin 1) → (c : Dev nD) → Dat τ (Elt F) Unit ℕ (UR sig nD τ) ℕ (cfgs p) c)
  (hq0 : ∀ c, (dats 0 c).q 0 = fullShare.left) (hq2 : ∀ c, (dats 0 c).q 2 = fullShare.right)
  (hq1 : ∀ c, (dats 0 c).q 1 = fullShare.left) (hq3 : ∀ c, (dats 0 c).q 3 = fullShare.right)

include hq0 hq1 hq2 hq3 in
/-- The proof data's account of the arrays, window by window: each argument at its two halves, the output whole. -/
theorem arrays0_eq (c : Dev nD) (G : (w : Fin cfg0.W) → Buf (Elt F) ((cfg0.win w).arr.view.loc (c.tc : Thread nD τ))) :
    ((dats 0 c).arrays G : sProp 𝕄)
      = iprop((((c.tc : Thread nD τ).loc main_arg0) ↦{fullShare.left} G 0) ∗ (((c.tc : Thread nD τ).loc main_arg1) ↦{fullShare.left} G 1)
          ∗ (((c.tc : Thread nD τ).loc main_arg0) ↦{fullShare.right} G 2) ∗ (((c.tc : Thread nD τ).loc main_arg1) ↦{fullShare.right} G 3)
          ∗ (((c.tc : Thread nD τ).loc main_v0) ↦{fullShare} G 4)) := by
  have s0 : (dats 0 c).share 0 = fullShare.left := (if_neg Bool.false_ne_true).trans (hq0 c)
  have s1 : (dats 0 c).share 1 = fullShare.left := (if_neg Bool.false_ne_true).trans (hq1 c)
  have s2 : (dats 0 c).share 2 = fullShare.right := (if_neg Bool.false_ne_true).trans (hq2 c)
  have s3 : (dats 0 c).share 3 = fullShare.right := (if_neg Bool.false_ne_true).trans (hq3 c)
  have s4 : (dats 0 c).share 4 = fullShare := if_pos rfl
  unfold Dat.arrays
  rw [bigSep_W0, (arr_whole0 0).set_eq_univ, (arr_whole0 1).set_eq_univ, (arr_whole0 4).set_eq_univ, s0, s1, s2, s3, s4]

include hq0 hq1 hq2 hq3 in
/-- Whole buffers at contents `W` are the proof data's arrays at contents that agree with `W`, and back: an argument
    read by two windows is halved between them, and the halves, at one contents, make the whole again. -/
theorem arrays0_iff (c : Dev nD) (W : (b : Ref sig .tc) → Buf (Elt F) ((c.tc : Thread nD τ).loc b))
    (G : (w : Fin cfg0.W) → Buf (Elt F) ((cfg0.win w).arr.view.loc (c.tc : Thread nD τ)))
    (h0 : G 0 = W main_arg0) (h1 : G 1 = W main_arg1) (h2 : G 2 = W main_arg0) (h3 : G 3 = W main_arg1) (h4 : G 4 = W main_v0) :
    (Pipeline.arrBufs (Ix := Unit) (Name := ℕ) (U := UR sig nD τ) (Lvl := ℕ) spec0 c W : sProp 𝕄) ⊣⊢ (dats 0 c).arrays G := by
  rw [arrBufs0_eq, arrays0_eq dats hq0 hq2 hq1 hq3 c G, h0, h1, h2, h3, h4]
  constructor
  · iintro ⟨H0, H1, H4⟩
    ihave H0 := (pointsTo_share (PosShare.mem_left_op_right fullShare)).1 $$ H0
    ihave H1 := (pointsTo_share (PosShare.mem_left_op_right fullShare)).1 $$ H1
    icases H0 with ⟨H0l, H0r⟩
    icases H1 with ⟨H1l, H1r⟩
    isplitl [H0l]; · iexact H0l
    isplitl [H1l]; · iexact H1l
    isplitl [H0r]; · iexact H0r
    isplitl [H1r]; · iexact H1r
    iexact H4
  · iintro ⟨H0l, H1l, H0r, H1r, H4⟩
    isplitl [H0l H0r]
    · iapply (pointsTo_share (PosShare.mem_left_op_right fullShare)).2
      isplitl [H0l] <;> iassumption
    isplitl [H1l H1r]
    · iapply (pointsTo_share (PosShare.mem_left_op_right fullShare)).2
      isplitl [H1l] <;> iassumption
    iexact H4

end Shares

/-! ## The host operations after the region -/

/-- The references the host operations after the region write. -/
abbrev tailW : List (Ref sig .tc) :=
  [main_v1, main_c, main_v2, main_v3, main_c_0, main_v4, main_v5, main_v6, main_c_1, main_v7, main_v8, main_v9, main_c_2, main_v10,
   main_v11, main_v12, main_cst, main_v13, main_cst_3, main_v14, main_v15, main_cst_4, main_call0_v0, main_v16]

theorem tail_writes : (hostOps1 ++ hostOps1_1 : List (HloOp τ sig (Elt F))).Forall
    fun op => op.writes ⊆ (tailW.map (Proc.devRef (τ := τ) .tc)).toFinset := by
  simp only [List.cons_append, List.nil_append, List.Forall]
  repeat' constructor
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer outside that list keeps its contents through the host operations after the region. -/
theorem tail_keeps (W : Valuation τ sig (Elt F)) (r : Ref sig .tc) (h : r ∉ tailW) :
    StableHlo.after (hostOps1 ++ hostOps1_1) W (Proc.devRef .tc r) = W (Proc.devRef .tc r) :=
  StableHlo.after_of_writes_sub _ W tail_writes h

theorem tail_sub : ∀ ops ∈ ([hostOps1, hostOps1_1] : List (List (HloOp τ sig (Elt F)))), ∀ op ∈ ops, op.bufs ⊆ Pipeline.ucRefs τ sig := by
  intro ops hops op hop
  rcases List.mem_cons.mp hops with rfl | hops
  · exact Pipeline.sub_ucRefs op (List.forall_iff_forall_mem.mp hostOps1_sub op hop)
  · rcases List.mem_singleton.mp hops with rfl
    exact Pipeline.sub_ucRefs op (List.forall_iff_forall_mem.mp hostOps1_1_sub op hop)

theorem tail_fresh : ∀ ops ∈ ([hostOps1, hostOps1_1] : List (List (HloOp τ sig (Elt F)))), ∀ op ∈ ops, op.fresh = ∅ := by
  intro ops hops op hop
  rcases List.mem_cons.mp hops with rfl | hops
  · exact List.forall_iff_forall_mem.mp hostOps1_fresh op hop
  · rcases List.mem_singleton.mp hops with rfl
    exact List.forall_iff_forall_mem.mp hostOps1_1_fresh op hop

theorem tail_flatten : ([hostOps1, hostOps1_1] : List (List (HloOp τ sig (Elt F)))).flatten = hostOps1 ++ hostOps1_1 := by
  simp only [List.flatten_cons, List.flatten_nil, List.append_nil]

/-- The unscoped buffers held whole are the buffers behind the arrays and the buffers that bypass the region. -/
theorem held_uc (c : Dev nD) (W : Valuation τ sig (Elt F)) :
    (StableHlo.held (c.tc : Thread nD τ) (Pipeline.ucRefs τ sig) W : sProp 𝕄)
      = iprop((Pipeline.arrBufs (Ix := Unit) (Name := ℕ) (U := UR sig nD τ) (Lvl := ℕ) spec0 c (fun b => W (Proc.devRef .tc b)) : sProp 𝕄)
          ∗ Pipeline.unscopedRest (Ix := Unit) (Name := ℕ) (U := UR sig nD τ) (Lvl := ℕ) spec0 c (fun b => W (Proc.devRef .tc b))) := by
  rw [← Pipeline.unscopedBufs_held, Pipeline.unscopedBufs_split₀ cfgs 0 winFacts₀0.arr_unscoped c]

section Tail

variable (dats : (p : Fin 1) → (c : Dev nD) → Dat τ (Elt F) Unit ℕ (UR sig nD τ) ℕ (cfgs p) c)
  (hA : ∀ c w, (dats 0 c).A w = V m c (Pipeline.arrRef spec0 w))
  (hq0 : ∀ c, (dats 0 c).q 0 = fullShare.left) (hq2 : ∀ c, (dats 0 c).q 2 = fullShare.right)
  (hq1 : ∀ c, (dats 0 c).q 1 = fullShare.left) (hq3 : ∀ c, (dats 0 c).q 3 = fullShare.right)

include hA hq0 hq1 hq2 hq3 in
/-- From the region's exit the host operations run over whole buffers — the halves of each argument joined, both at
    the argument's contents — and write no array, so the arrays go back to the proof data's account as they came. -/
theorem tail_of (c : Dev nD) (Q' : PUnit → sProp 𝕄) :
    iprop((iprop((dats 0 c).arrays ((dats 0 c).arrAt · cfg0.N)
              ∗ Pipeline.unscopedRestP (Ix := Unit) (Name := ℕ) (U := UR sig nD τ) (Lvl := ℕ) Pipeline.Prefetch.none spec0 c
                  (fun b => StableHlo.after (hostOps1 ++ hostOps1_1) (Wx m dats c) (Proc.devRef .tc b))) -∗ Q' ⟨⟩)
        ∗ boundary (c.tc : Thread nD τ) ∗ (dats 0 c).arrays ((dats 0 c).arrAt · cfg0.N)
        ∗ Pipeline.unscopedRestP (Ix := Unit) (Name := ℕ) (U := UR sig nD τ) (Lvl := ℕ) Pipeline.Prefetch.none spec0 c (V m c))
      ⊢ wp frame (wpE (Pipeline.defs (fun q => (cfgs q).toPCfg (Val := Elt F)) defs₀) (Variants.lift Variants.none) (c.tc : Thread nD τ) none) Set.univ
          (Pipeline.chain [StableHlo.seq hostOps1, StableHlo.seq hostOps1_1]) Q' := by
  classical
  -- what the arrays hold at the exit, as contents of the buffers
  have e0 : (dats 0 c).arrAt 0 cfg0.N = Wx m dats c (Proc.devRef .tc main_arg0) := by
    rw [Pipeline.Dat.arrAt_in _ 0 rfl, hA, Wx_of_ne m dats c main_arg0 (by decide)]; rfl
  have e1 : (dats 0 c).arrAt 1 cfg0.N = Wx m dats c (Proc.devRef .tc main_arg1) := by
    rw [Pipeline.Dat.arrAt_in _ 1 rfl, hA, Wx_of_ne m dats c main_arg1 (by decide)]; rfl
  have e2 : (dats 0 c).arrAt 2 cfg0.N = Wx m dats c (Proc.devRef .tc main_arg0) := by
    rw [Pipeline.Dat.arrAt_in _ 2 rfl, hA, Wx_of_ne m dats c main_arg0 (by decide)]; rfl
  have e3 : (dats 0 c).arrAt 3 cfg0.N = Wx m dats c (Proc.devRef .tc main_arg1) := by
    rw [Pipeline.Dat.arrAt_in _ 3 rfl, hA, Wx_of_ne m dats c main_arg1 (by decide)]; rfl
  have e4 : (dats 0 c).arrAt 4 cfg0.N = Wx m dats c (Proc.devRef .tc main_v0) := (Wx_v0 m dats c).symm
  have k0 := tail_keeps (Wx m dats c) main_arg0 (by decide)
  have k1 := tail_keeps (Wx m dats c) main_arg1 (by decide)
  have k4 := tail_keeps (Wx m dats c) main_v0 (by decide)
  have hjoin := arrays0_iff dats hq0 hq2 hq1 hq3 c (fun b => Wx m dats c (Proc.devRef .tc b)) ((dats 0 c).arrAt · cfg0.N) e0 e1 e2 e3 e4
  have hback := arrays0_iff dats hq0 hq2 hq1 hq3 c (fun b => StableHlo.after (hostOps1 ++ hostOps1_1) (Wx m dats c) (Proc.devRef .tc b))
    ((dats 0 c).arrAt · cfg0.N) (e0.trans k0.symm) (e1.trans k1.symm) (e2.trans k0.symm) (e3.trans k1.symm) (e4.trans k4.symm)
  -- the buffers that bypass the region are none of them the output array
  have hrest : (Pipeline.unscopedRest (Ix := Unit) (Name := ℕ) (U := UR sig nD τ) (Lvl := ℕ) spec0 c (V m c) : sProp 𝕄)
      = Pipeline.unscopedRest spec0 c (fun b => Wx m dats c (Proc.devRef .tc b)) := by
    unfold Pipeline.unscopedRest
    exact bigSep_congr fun b hb => by
      beta_reduce
      rw [Wx_of_ne m dats c b fun e => (Finset.mem_sdiff.mp hb).2 (Finset.mem_image.mpr ⟨4, Finset.mem_univ _, e.symm⟩)]; rfl
  rw [Pipeline.unscopedRestP_none, Pipeline.unscopedRestP_none, hrest]
  show _ ⊢ wp _ _ _ (Pipeline.chain ([hostOps1, hostOps1_1].map StableHlo.seq ++ [])) _
  iintro ⟨Hk, Hb, HA, HZ⟩
  ihave HA := hjoin.2 $$ HA
  ihave HH := (Entails.of_eq (held_uc c (Wx m dats c)).symm) $$ [HA HZ]
  · isplitl [HA] <;> iassumption
  iapply (Pipeline.wp_seqs_then (fun q => (cfgs q).toPCfg (Val := Elt F)) defs₀ Variants.none c (Pipeline.ucRefs τ sig) [] [hostOps1, hostOps1_1]
    tail_sub tail_fresh (Wx m dats c)) $$ [Hb HH]
  · isplitl [Hb] <;> iassumption
  iintro HH
  rw [Pipeline.chain_nil, wp_pure, tail_flatten, held_uc]
  imodintro
  iapply Hk
  icases HH with ⟨-, HA, HZ⟩
  isplitl [HA]
  · iapply hback.1; iexact HA
  iexact HZ

end Tail
theorem run_of (dats : (p : Fin 1) → (c : Dev nD) → Dat τ (Elt F) Unit ℕ (UR sig nD τ) ℕ (cfgs p) c)
    (hA : ∀ c w, (dats 0 c).A w = V m c (Pipeline.arrRef spec0 w))
    (hq0 : ∀ c, (dats 0 c).q 0 = fullShare.left) (hq2 : ∀ c, (dats 0 c).q 2 = fullShare.right)
    (hq1 : ∀ c, (dats 0 c).q 1 = fullShare.left) (hq3 : ∀ c, (dats 0 c).q 3 = fullShare.right)
    (howed : ∀ c t, (dats 0 c).owed t = 0)
    (hbody : ∀ c, Pipeline.BodyObligationLoose (dats 0 c) defs₀ Variants.none () Set.univ)
    (hin : ∀ c, Pipeline.ΦA spec0 c ⊢ (dats 0 c).Φ 0)
    (hout : ∀ c, (dats 0 c).Φ (Fin.last cfg0.N) ⊢ Pipeline.ΦA spec0 c) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v16) = StableHlo.after (hostOps1 ++ hostOps1_1) (Wx m dats c) (Proc.devRef .tc main_v16)) := by
  classical
  unfold defs
  exact Pipeline.θ_run_region_pf_tail (fun q => (cfgs q).toPCfg) (fun q => (cfgs q).toPCfg_adm) dats () cellOf_inj 0 winFacts₀0
    (Pipeline.OwnSemFacts.none spec0) (Pipeline.PreFacts.none _) emb₁ defs₀ Variants.none m ρ main
    (fun _ => Pipeline.chain [StableHlo.seq hostOps1, StableHlo.seq hostOps1_1]) hbody
    block_pos0 arr_whole0 stage_whole0 howed
    (G := fun _ => iprop(emp)) (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (V := V m) (hmain := hmain m Variants.none)
    (hsplit := fun c => (arrays0_iff dats hq0 hq2 hq1 hq3 c (V m c) ((dats 0 c).arrAt · 0) (hA c 0) (hA c 1) (hA c 2) (hA c 3) (hA c 4)).1)
    (hpf := fun _ k => k.elim0)
    (X := fun c => iprop(∃ r, prngReg c r)) (Y := fun c => iprop(∃ r, prngReg c r))
    (Z := fun c => Pipeline.unscopedRestP (Ix := Unit) (Name := ℕ) (U := UR sig nD τ) (Lvl := ℕ) Pipeline.Prefetch.none spec0 c (V m c))
    (Z' := fun c => Pipeline.unscopedRestP (Ix := Unit) (Name := ℕ) (U := UR sig nD τ) (Lvl := ℕ) Pipeline.Prefetch.none spec0 c
      (fun b => StableHlo.after (hostOps1 ++ hostOps1_1) (Wx m dats c) (Proc.devRef .tc b)))
    (hX := fun c => by
      iintro ⟨HU, -, -, -, Hp, -⟩; imodintro
      isplitl [Hp]; · iexists _; iexact Hp
      iexact HU)
    (hin := fun c => (show _ ⊢ Pipeline.ΦA spec0 c by
      unfold Pipeline.ΦA; iintro ⟨Hp, -, Hr⟩
      isplitl [Hr] <;> iassumption).trans (hin c))
    (hout := fun c => (hout c).trans (by
      rw [Pipeline.ownSems0_none]; unfold Pipeline.ΦA
      iintro ⟨Hr, Hp⟩
      isplitl [Hp]; · iexact Hp
      isplitr; · iempintro
      iexact Hr))
    (htail := fun c Q' => tail_of m dats hA hq0 hq2 hq1 hq3 c Q')
    (QY := fun c s => ∀ b ∈ Pipeline.restRefsP sig Pipeline.Prefetch.none spec0, s.mem ((c.tc : Thread nD τ).loc b)
      = StableHlo.after (hostOps1 ++ hostOps1_1) (Wx m dats c) (Proc.devRef .tc b))
    (hY := fun c s' => by
      iintro ⟨-, HU, HSI⟩
      unfold Pipeline.unscopedRestP
      imodintro
      iapply (pointsTo_read_all (Pipeline.restRefsP sig Pipeline.Prefetch.none spec0) (fun b => (c.tc : Thread nD τ).loc b)
        (fun b => StableHlo.after (hostOps1 ++ hostOps1_1) (Wx m dats c) (Proc.devRef .tc b)) s')
      isplitl [HU] <;> iassumption)
    (hQ := fun s h c => ⟨((h c).1 0).trans ((Pipeline.Dat.arrAt_in _ 0 rfl _).trans (hA c 0)),
      ((h c).1 1).trans ((Pipeline.Dat.arrAt_in _ 1 rfl _).trans (hA c 1)),
      (h c).2.2 main_v16 (Finset.mem_sdiff.mpr ⟨Pipeline.mem_restRefs_of main_v16 rfl (by decide),
        fun hk => by obtain ⟨k, -, -⟩ := Finset.mem_image.mp hk; exact k.elim0⟩)⟩)

end Cert.Kernel.Hand

end
-- ==== Proof.KBRun.lean ====
/-
  The run of the whole program: every weakly fair execution terminates, the two argument arrays end unchanged.
-/
import proofs.«154038_j90666759619072_2_alg».proof.Proof.KBBody
import proofs.«154038_j90666759619072_2_alg».proof.Proof.KBLaunch

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run, from the launch theorem for windows that share arrays: the proof data, the body obligation, and the
    invariant's two ends are this program's. -/
theorem run_main : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_v16) = StableHlo.after (hostOps1 ++ hostOps1_1) (Wx m (dats m) c) (Proc.devRef .tc main_v16)) :=
  run_of m ρ (dats m) (A_eq m) (fun _ => rfl) (fun _ => rfl) (fun _ => rfl) (fun _ => rfl) (fun _ _ => rfl)
    (fun c => (body_obligation m c).loose) (hin m) (hout m)

/-- The frame: the program runs to its end and leaves its two argument arrays as they were. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1, (h c).2.1⟩) (run_main m ρ)

end Cert.Kernel.Hand

end
-- ==== Proof.RefRun.lean ====
/-
  The reference program's run, read back: its @main is a list of 53 host operations, and every weakly
  fair execution ends with the result buffer at the operations' composed term of the two arguments'
  launch contents, the arguments unchanged.  The composed term is stated over two named parts: the
  pairwise total `refTotal` (the sum over all pairs of the masked hinge) and the common tail
  `Cert.Hinge.tailFn` (the division by the number of (positive, negative) pairs).
-/
import proofs.«154038_j90666759619072_2_alg».proof.Proof.Gen.ReferenceIdeal
import Idealize.ShloMosaic.Lib.StableHlo.Run
import proofs.«154038_j90666759619072_2_alg».proof.Proof.Spec
import proofs.«154038_j90666759619072_2_alg».proof.Proof.Tail

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 53 operations, in order (a called function's operations stand in its call's place, spelt `TRef.…`). -/
abbrev ops : List (HloOp τ sig (Elt F)) :=
  [ unary main_arg0 main_v0 (Host.negf : (⟨S16384, .f32⟩ : BufTy).Contents (Elt F) → (⟨S16384, .f32⟩ : BufTy).Contents (Elt F)),
    unary main_v0 main_v1 (Host.exp : (⟨S16384, .f32⟩ : BufTy).Contents (Elt F) → (⟨S16384, .f32⟩ : BufTy).Contents (Elt F)),
    nullary main_cst (constant S_ .f32 0x3F800000#32),
    unary main_cst main_v2 (broadcastInDim S16384 ![] bcast_S_S16384 : (⟨S_, .f32⟩ : BufTy).Contents (Elt F) → (⟨S16384, .f32⟩ : BufTy).Contents (Elt F)),
    binary main_v2 main_v1 main_v3 (addf : (⟨S16384, .f32⟩ : BufTy).Contents (Elt F) → (⟨S16384, .f32⟩ : BufTy).Contents (Elt F) → (⟨S16384, .f32⟩ : BufTy).Contents (Elt F)),
    nullary main_cst_0 (constant S_ .f32 0x3F800000#32),
    unary main_cst_0 main_v4 (broadcastInDim S16384 ![] bcast_S_S16384 : (⟨S_, .f32⟩ : BufTy).Contents (Elt F) → (⟨S16384, .f32⟩ : BufTy).Contents (Elt F)),
    binary main_v4 main_v3 main_v5 (Host.divf : (⟨S16384, .f32⟩ : BufTy).Contents (Elt F) → (⟨S16384, .f32⟩ : BufTy).Contents (Elt F) → (⟨S16384, .f32⟩ : BufTy).Contents (Elt F)),
    nullary main_c (constantI S_ 32 1#32),
    unary main_c main_v6 (broadcastInDim S16384 ![] bcast_S_S16384 : (⟨S_, .i32⟩ : BufTy).Contents (Elt F) → (⟨S16384, .i32⟩ : BufTy).Contents (Elt F)),
    binary main_arg1 main_v6 main_v7 (cmpi .eq : (⟨S16384, .i32⟩ : BufTy).Contents (Elt F) → (⟨S16384, .i32⟩ : BufTy).Contents (Elt F) → (⟨S16384, .i1⟩ : BufTy).Contents (Elt F)),
    nullary main_c_1 (constantI S_ 32 0#32),
    unary main_c_1 main_v8 (broadcastInDim S16384 ![] bcast_S_S16384 : (⟨S_, .i32⟩ : BufTy).Contents (Elt F) → (⟨S16384, .i32⟩ : BufTy).Contents (Elt F)),
    binary main_arg1 main_v8 main_v9 (cmpi .eq : (⟨S16384, .i32⟩ : BufTy).Contents (Elt F) → (⟨S16384, .i32⟩ : BufTy).Contents (Elt F) → (⟨S16384, .i1⟩ : BufTy).Contents (Elt F)),
    unary main_v7 main_v10 ((extui 32 · natLt_1_32) : (⟨S16384, .i1⟩ : BufTy).Contents (Elt F) → (⟨S16384, .i32⟩ : BufTy).Contents (Elt F)),
    nullary main_c_2 (constantI S_ 32 0#32),
    binary main_v10 main_c_2 main_v11 ((fun x v => Host.reduce IntOp.addi x v reducesTo_S16384_S_d0 h_S_) : (⟨S16384, .i32⟩ : BufTy).Contents (Elt F) → (⟨S_, .i32⟩ : BufTy).Contents (Elt F) → (⟨S_, .i32⟩ : BufTy).Contents (Elt F)),
    unary main_v11 main_v12 (sitofp .f32 : (⟨S_, .i32⟩ : BufTy).Contents (Elt F) → (⟨S_, .f32⟩ : BufTy).Contents (Elt F)),
    unary main_v9 main_v13 ((extui 32 · natLt_1_32) : (⟨S16384, .i1⟩ : BufTy).Contents (Elt F) → (⟨S16384, .i32⟩ : BufTy).Contents (Elt F)),
    nullary main_c_3 (constantI S_ 32 0#32),
    binary main_v13 main_c_3 main_v14 ((fun x v => Host.reduce IntOp.addi x v reducesTo_S16384_S_d0 h_S_) : (⟨S16384, .i32⟩ : BufTy).Contents (Elt F) → (⟨S_, .i32⟩ : BufTy).Contents (Elt F) → (⟨S_, .i32⟩ : BufTy).Contents (Elt F)),
    unary main_v14 main_v15 (sitofp .f32 : (⟨S_, .i32⟩ : BufTy).Contents (Elt F) → (⟨S_, .f32⟩ : BufTy).Contents (Elt F)),
    unary main_v5 main_v16 (broadcastInDim S16384x1 ![0] bcast_S16384_S16384x1_0 : (⟨S16384, .f32⟩ : BufTy).Contents (Elt F) → (⟨S16384x1, .f32⟩ : BufTy).Contents (Elt F)),
    unary main_v5 main_v17 (broadcastInDim S1x16384 ![1] bcast_S16384_S1x16384_1 : (⟨S16384, .f32⟩ : BufTy).Contents (Elt F) → (⟨S1x16384, .f32⟩ : BufTy).Contents (Elt F)),
    unary main_v16 main_v18 (broadcastInDim S16384x16384 ![0, 1] bcast_S16384x1_S16384x16384_0_1 : (⟨S16384x1, .f32⟩ : BufTy).Contents (Elt F) → (⟨S16384x16384, .f32⟩ : BufTy).Contents (Elt F)),
    unary main_v17 main_v19 (broadcastInDim S16384x16384 ![0, 1] bcast_S1x16384_S16384x16384_0_1 : (⟨S1x16384, .f32⟩ : BufTy).Contents (Elt F) → (⟨S16384x16384, .f32⟩ : BufTy).Contents (Elt F)),
    binary main_v18 main_v19 main_v20 (subf : (⟨S16384x16384, .f32⟩ : BufTy).Contents (Elt F) → (⟨S16384x16384, .f32⟩ : BufTy).Contents (Elt F) → (⟨S16384x16384, .f32⟩ : BufTy).Contents (Elt F)),
    nullary main_cst_4 (constant S_ .f32 0x3F800000#32),
    unary main_cst_4 main_v21 (broadcastInDim S16384x16384 ![] bcast_S_S16384x16384 : (⟨S_, .f32⟩ : BufTy).Contents (Elt F) → (⟨S16384x16384, .f32⟩ : BufTy).Contents (Elt F)),
    binary main_v21 main_v20 main_v22 (subf : (⟨S16384x16384, .f32⟩ : BufTy).Contents (Elt F) → (⟨S16384x16384, .f32⟩ : BufTy).Contents (Elt F) → (⟨S16384x16384, .f32⟩ : BufTy).Contents (Elt F)),
    nullary main_cst_5 (constant S_ .f32 0x00000000#32),
    unary main_cst_5 main_v23 (broadcastInDim S16384x16384 ![] bcast_S_S16384x16384 : (⟨S_, .f32⟩ : BufTy).Contents (Elt F) → (⟨S16384x16384, .f32⟩ : BufTy).Contents (Elt F)),
    binary main_v22 main_v23 main_v24 (maximumf : (⟨S16384x16384, .f32⟩ : BufTy).Contents (Elt F) → (⟨S16384x16384, .f32⟩ : BufTy).Contents (Elt F) → (⟨S16384x16384, .f32⟩ : BufTy).Contents (Elt F)),
    unary main_v7 main_v25 (broadcastInDim S16384x1 ![0] bcast_S16384_S16384x1_0 : (⟨S16384, .i1⟩ : BufTy).Contents (Elt F) → (⟨S16384x1, .i1⟩ : BufTy).Contents (Elt F)),
    unary main_v9 main_v26 (broadcastInDim S1x16384 ![1] bcast_S16384_S1x16384_1 : (⟨S16384, .i1⟩ : BufTy).Contents (Elt F) → (⟨S1x16384, .i1⟩ : BufTy).Contents (Elt F)),
    unary main_v25 main_v27 (broadcastInDim S16384x16384 ![0, 1] bcast_S16384x1_S16384x16384_0_1 : (⟨S16384x1, .i1⟩ : BufTy).Contents (Elt F) → (⟨S16384x16384, .i1⟩ : BufTy).Contents (Elt F)),
    unary main_v26 main_v28 (broadcastInDim S16384x16384 ![0, 1] bcast_S1x16384_S16384x16384_0_1 : (⟨S1x16384, .i1⟩ : BufTy).Contents (Elt F) → (⟨S16384x16384, .i1⟩ : BufTy).Contents (Elt F)),
    binary main_v27 main_v28 main_v29 (andi : (⟨S16384x16384, .i1⟩ : BufTy).Contents (Elt F) → (⟨S16384x16384, .i1⟩ : BufTy).Contents (Elt F) → (⟨S16384x16384, .i1⟩ : BufTy).Contents (Elt F)),
    nullary main_cst_6 (constant S_ .f32 0x00000000#32),
    TRef.unary (TRef.of (T := ⟨S_, .f32⟩) main_cst_6) (TRef.of (T := ⟨S_, .f32⟩) main_call0_v0) id,
    TRef.unary (TRef.of (T := ⟨S_, .f32⟩) main_call0_v0) (TRef.of (T := ⟨S16384x16384, .f32⟩) main_call0_v1) (broadcastInDim S16384x16384 ![] bcast_S_S16384x16384),
    TRef.ternary (TRef.of (T := ⟨S16384x16384, .i1⟩) main_v29) (TRef.of (T := ⟨S16384x16384, .f32⟩) main_v24) (TRef.of (T := ⟨S16384x16384, .f32⟩) main_call0_v1) (TRef.of (T := ⟨S16384x16384, .f32⟩) main_v30) select,
    nullary main_cst_7 (constant S_ .f32 0x00000000#32),
    binary main_v30 main_cst_7 main_v31 ((fun x v => Host.reduceAdd x v reducesTo_S16384x16384_S_d0_1 h_S_) : (⟨S16384x16384, .f32⟩ : BufTy).Contents (Elt F) → (⟨S_, .f32⟩ : BufTy).Contents (Elt F) → (⟨S_, .f32⟩ : BufTy).Contents (Elt F)),
    binary main_v12 main_v15 main_v32 (mulf : (⟨S_, .f32⟩ : BufTy).Contents (Elt F) → (⟨S_, .f32⟩ : BufTy).Contents (Elt F) → (⟨S_, .f32⟩ : BufTy).Contents (Elt F)),
    nullary main_cst_8 (constant S_ .f32 0x00000000#32),
    binary main_v32 main_cst_8 main_v33 (cmpf .ogt : (⟨S_, .f32⟩ : BufTy).Contents (Elt F) → (⟨S_, .f32⟩ : BufTy).Contents (Elt F) → (⟨S_, .i1⟩ : BufTy).Contents (Elt F)),
    nullary main_cst_9 (constant S_ .f32 0x3F800000#32),
    binary main_v32 main_cst_9 main_v34 (maximumf : (⟨S_, .f32⟩ : BufTy).Contents (Elt F) → (⟨S_, .f32⟩ : BufTy).Contents (Elt F) → (⟨S_, .f32⟩ : BufTy).Contents (Elt F)),
    binary main_v31 main_v34 main_v35 (Host.divf : (⟨S_, .f32⟩ : BufTy).Contents (Elt F) → (⟨S_, .f32⟩ : BufTy).Contents (Elt F) → (⟨S_, .f32⟩ : BufTy).Contents (Elt F)),
    nullary main_cst_10 (constant S_ .f32 0x00000000#32),
    TRef.unary (TRef.of (T := ⟨S_, .f32⟩) main_cst_10) (TRef.of (T := ⟨S_, .f32⟩) main_call1_v0) id,
    TRef.ternary (TRef.of (T := ⟨S_, .i1⟩) main_v33) (TRef.of (T := ⟨S_, .f32⟩) main_v35) (TRef.of (T := ⟨S_, .f32⟩) main_call1_v0) (TRef.of (T := ⟨S_, .f32⟩) main_v36) select ]

set_option maxRecDepth 8192 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨unary_bufs_sub .., unary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., unary_bufs_sub .., nullary_bufs_sub .., binary_bufs_sub .., unary_bufs_sub .., unary_bufs_sub .., nullary_bufs_sub .., binary_bufs_sub .., unary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., unary_bufs_sub .., unary_bufs_sub .., unary_bufs_sub .., unary_bufs_sub .., binary_bufs_sub .., nullary_bufs_sub .., unary_bufs_sub .., unary_bufs_sub .., ternary_bufs_sub .., nullary_bufs_sub .., binary_bufs_sub .., binary_bufs_sub .., nullary_bufs_sub .., binary_bufs_sub .., nullary_bufs_sub .., binary_bufs_sub .., binary_bufs_sub .., nullary_bufs_sub .., unary_bufs_sub .., ternary_bufs_sub ..⟩

/-- The sigmoid row: 1 / (1 + exp (−x)) at every index. -/
def sigRow (x0 : FVec F S16384 .f32) : FVec F S16384 .f32 :=
  (Host.divf (F := F) (broadcastInDim S16384 ![] bcast_S_S16384 (constant (F := F) S_ .f32 0x3F800000#32)) (addf (broadcastInDim S16384 ![] bcast_S_S16384 (constant (F := F) S_ .f32 0x3F800000#32)) (Host.exp (F := F) (Host.negf (F := F) x0))))

/-- The pairwise total of the reference: the sum, over every pair (a, b), of the hinge of the two sigmoids where
    label a is 1 and label b is 0, and of 0 elsewhere. -/
def refTotal (x0 : FVec F S16384 .f32) (x1 : IVec S16384 32) : FVec F S_ .f32 :=
  Host.reduceAdd (F := F)
    (select
      (andi
        (broadcastInDim S16384x16384 ![0, 1] bcast_S16384x1_S16384x16384_0_1 (broadcastInDim S16384x1 ![0] bcast_S16384_S16384x1_0 (cmpi .eq x1 (broadcastInDim S16384 ![] bcast_S_S16384 (constantI S_ 32 1#32)))))
        (broadcastInDim S16384x16384 ![0, 1] bcast_S1x16384_S16384x16384_0_1 (broadcastInDim S1x16384 ![1] bcast_S16384_S1x16384_1 (cmpi .eq x1 (broadcastInDim S16384 ![] bcast_S_S16384 (constantI S_ 32 0#32))))))
      (maximumf
        (subf (broadcastInDim S16384x16384 ![] bcast_S_S16384x16384 (constant (F := F) S_ .f32 0x3F800000#32))
          (subf
            (broadcastInDim S16384x16384 ![0, 1] bcast_S16384x1_S16384x16384_0_1 (broadcastInDim S16384x1 ![0] bcast_S16384_S16384x1_0 (sigRow x0)))
            (broadcastInDim S16384x16384 ![0, 1] bcast_S1x16384_S16384x16384_0_1 (broadcastInDim S1x16384 ![1] bcast_S16384_S1x16384_1 (sigRow x0)))))
        (broadcastInDim S16384x16384 ![] bcast_S_S16384x16384 (constant (F := F) S_ .f32 0x00000000#32)))
      (broadcastInDim S16384x16384 ![] bcast_S_S16384x16384 (id (constant (F := F) S_ .f32 0x00000000#32))))
    (constant (F := F) S_ .f32 0x00000000#32) reducesTo_S16384x16384_S_d0_1 h_S_

set_option maxRecDepth 8192 in
set_option maxHeartbeats 2000000 in
/-- On every device, for any float values, from any memory with zero counters: every weakly fair execution of
    @main terminates with the result at the tail of the pairwise total of the two arguments, and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v36) =
          Cert.Hinge.tailFn (F := F) bcast_S_S16384 reducesTo_S16384_S_d0 h_S_ natLt_1_32
            (refTotal (m ((c.tc : Thread nD τ).loc main_arg0)) (m ((c.tc : Thread nD τ).loc main_arg1)))
            (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c main_v36).trans (by after_results_simp <;> rfl),
      (h c main_arg0).trans (by after_results_simp <;> rfl),
      (h c main_arg1).trans (by after_results_simp <;> rfl)⟩)
    (run_seq scopedRefs_eq scopedSems_eq defs main (fun _ => ops) main_eq (fun _ => ops_sub) m ρ)

end Cert.ReferenceIdeal.RefValue

end
-- ==== Proof.RefTotal.lean ====
/-
  The reference's pairwise total, read at the extended reals, is the specification's double sum: at the
  pair (a, b) the summed array holds the hinge of the two sigmoids where label a is 1 and label b is 0,
  and 0 elsewhere; the sum over the square of pairs is the sum over a of the sum over b.
-/
import proofs.«154038_j90666759619072_2_alg».proof.Proof.RefRun
import Idealize.ShloMosaic.Lib.Pipeline.Value
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Idealize.ShloMosaic Idealize.ShloMosaic.ValueIdx

/-! ## The four broadcasts of the program, read at an index given by its coordinates -/

section Layout
variable {α : Type}

/-- A scalar spread over the row is the scalar at every place. -/
theorem bcast_scalar_row (y : S_.Idx → α) (a : Fin 16384) :
    broadcastInDim S16384 ![] bcast_S_S16384 y (ix1 a) = y ix0 :=
  broadcastInDim_apply _ bcast_S_S16384 y (ix1 a) ix0 (fun d => d.elim0)

/-- A scalar spread over the square of pairs is the scalar at every pair. -/
theorem bcast_scalar_square (y : S_.Idx → α) (a b : Fin 16384) :
    broadcastInDim S16384x16384 ![] bcast_S_S16384x16384 y (ix2 a b) = y ix0 :=
  broadcastInDim_apply _ bcast_S_S16384x16384 y (ix2 a b) ix0 (fun d => d.elim0)

/-- The row set as a column and spread along the second axis: the pair (a, b) reads element a. -/
theorem bcast_col (y : S16384.Idx → α) (a b : Fin 16384) :
    broadcastInDim S16384x16384 ![0, 1] bcast_S16384x1_S16384x16384_0_1
      (broadcastInDim S16384x1 ![0] bcast_S16384_S16384x1_0 y) (ix2 a b) = y (ix1 a) := by
  refine (broadcastInDim_apply _ bcast_S16384x1_S16384x16384_0_1 _ (ix2 a b) (ix2 a (0 : Fin 1)) (fun d => match d with
    | ⟨0, _⟩ => by show a.val = if (16384 : Nat) = 1 then 0 else a.val; rw [if_neg (by decide)]
    | ⟨1, _⟩ => by show 0 = if (1 : Nat) = 1 then 0 else b.val; rw [if_pos rfl])).trans ?_
  exact broadcastInDim_apply _ bcast_S16384_S16384x1_0 y (ix2 a (0 : Fin 1)) (ix1 a) (fun d => match d with
    | ⟨0, _⟩ => by show a.val = if (16384 : Nat) = 1 then 0 else a.val; rw [if_neg (by decide)])

/-- The row set as a row and spread along the first axis: the pair (a, b) reads element b. -/
theorem bcast_row (y : S16384.Idx → α) (a b : Fin 16384) :
    broadcastInDim S16384x16384 ![0, 1] bcast_S1x16384_S16384x16384_0_1
      (broadcastInDim S1x16384 ![1] bcast_S16384_S1x16384_1 y) (ix2 a b) = y (ix1 b) := by
  refine (broadcastInDim_apply _ bcast_S1x16384_S16384x16384_0_1 _ (ix2 a b) (ix2 (0 : Fin 1) b) (fun d => match d with
    | ⟨0, _⟩ => by show 0 = if (1 : Nat) = 1 then 0 else a.val; rw [if_pos rfl]
    | ⟨1, _⟩ => by show b.val = if (16384 : Nat) = 1 then 0 else b.val; rw [if_neg (by decide)])).trans ?_
  exact broadcastInDim_apply _ bcast_S16384_S1x16384_1 y (ix2 (0 : Fin 1) b) (ix1 b) (fun d => match d with
    | ⟨0, _⟩ => by show b.val = if (16384 : Nat) = 1 then 0 else b.val; rw [if_neg (by decide)])

end Layout

/-! ## The words -/

/-- The float word 0x3F800000 is the extended real 1. -/
theorem ofBits_one_f32 : Ideal.ofBits .f32 0x3F800000#32 = 1 := IdealRules.sign_bit.ideal_onePat .f32

/-- A select on the conjunction of two equality bits is the `if` on the two equalities. -/
theorem select_mask {α : Type} (u v : BitVec 32) (A B : α) :
    Scalar.select (IntOp.andi (IntOp.cmpi .eq u 1#32) (IntOp.cmpi .eq v 0#32)) A B
      = if u = 1#32 ∧ v = 0#32 then A else B := by
  unfold Scalar.select IntOp.andi IntOp.cmpi
  have key : (BitVec.ofBool (u == 1#32) &&& BitVec.ofBool (v == 0#32) = 1) ↔ (u = 1#32 ∧ v = 0#32) := by
    cases hu : (u == 1#32) <;> cases hv : (v == 0#32) <;> simp_all
  exact if_congr key rfl rfl

/-! ## The stages of the program at a pair -/

/-- The sigmoid row holds the logistic of each score: 1 / (1 + exp (−x)). -/
theorem sigRow_apply (x0 : FVec Ideal S16384 .f32) (a : Fin 16384) :
    sigRow (F := Ideal) x0 (ix1 a) = Ideal.logistic (x0 (ix1 a)) := by
  have h1 : broadcastInDim S16384 ![] bcast_S_S16384 (constant (F := Ideal) S_ .f32 0x3F800000#32) (ix1 a) = 1 := by
    rw [bcast_scalar_row]; exact ofBits_one_f32
  show Ideal.div (broadcastInDim S16384 ![] bcast_S_S16384 (constant (F := Ideal) S_ .f32 0x3F800000#32) (ix1 a))
      (broadcastInDim S16384 ![] bcast_S_S16384 (constant (F := Ideal) S_ .f32 0x3F800000#32) (ix1 a) + Ideal.exp (-(x0 (ix1 a)))) = _
  rw [h1]; rfl

/-- The mask at the pair (a, b): the bit "label a is 1" and the bit "label b is 0". -/
theorem mask_apply (x1 : IVec S16384 32) (a b : Fin 16384) :
    (andi
      (broadcastInDim S16384x16384 ![0, 1] bcast_S16384x1_S16384x16384_0_1 (broadcastInDim S16384x1 ![0] bcast_S16384_S16384x1_0 (cmpi .eq x1 (broadcastInDim S16384 ![] bcast_S_S16384 (constantI S_ 32 1#32)))))
      (broadcastInDim S16384x16384 ![0, 1] bcast_S1x16384_S16384x16384_0_1 (broadcastInDim S1x16384 ![1] bcast_S16384_S1x16384_1 (cmpi .eq x1 (broadcastInDim S16384 ![] bcast_S_S16384 (constantI S_ 32 0#32)))))) (ix2 a b)
      = IntOp.andi (IntOp.cmpi .eq (x1 (ix1 a)) 1#32) (IntOp.cmpi .eq (x1 (ix1 b)) 0#32) := by
  show IntOp.andi _ _ = _
  rw [bcast_col, bcast_row]
  show IntOp.andi (IntOp.cmpi .eq (x1 (ix1 a)) (broadcastInDim S16384 ![] bcast_S_S16384 (constantI S_ 32 1#32) (ix1 a)))
      (IntOp.cmpi .eq (x1 (ix1 b)) (broadcastInDim S16384 ![] bcast_S_S16384 (constantI S_ 32 0#32) (ix1 b))) = _
  rw [bcast_scalar_row, bcast_scalar_row]; rfl

/-- The hinge array at the pair (a, b): max (1 − (σ x_a − σ x_b)) 0. -/
theorem hinge_apply (x0 : FVec Ideal S16384 .f32) (a b : Fin 16384) :
    (maximumf
      (subf (broadcastInDim S16384x16384 ![] bcast_S_S16384x16384 (constant (F := Ideal) S_ .f32 0x3F800000#32))
        (subf
          (broadcastInDim S16384x16384 ![0, 1] bcast_S16384x1_S16384x16384_0_1 (broadcastInDim S16384x1 ![0] bcast_S16384_S16384x1_0 (sigRow (F := Ideal) x0)))
          (broadcastInDim S16384x16384 ![0, 1] bcast_S1x16384_S16384x16384_0_1 (broadcastInDim S1x16384 ![1] bcast_S16384_S1x16384_1 (sigRow (F := Ideal) x0)))))
      (broadcastInDim S16384x16384 ![] bcast_S_S16384x16384 (constant (F := Ideal) S_ .f32 0x00000000#32))) (ix2 a b)
      = Cert.Hinge.hinge (x0 (ix1 a)) (x0 (ix1 b)) := by
  rw [maximumf_apply, subf_apply, subf_apply, bcast_col, bcast_row, sigRow_apply, sigRow_apply,
    bcast_scalar_square, bcast_scalar_square]
  rfl

/-- The array the reference sums. -/
def integrand (x0 : FVec Ideal S16384 .f32) (x1 : IVec S16384 32) : FVec Ideal S16384x16384 .f32 :=
  select
    (andi
      (broadcastInDim S16384x16384 ![0, 1] bcast_S16384x1_S16384x16384_0_1 (broadcastInDim S16384x1 ![0] bcast_S16384_S16384x1_0 (cmpi .eq x1 (broadcastInDim S16384 ![] bcast_S_S16384 (constantI S_ 32 1#32)))))
      (broadcastInDim S16384x16384 ![0, 1] bcast_S1x16384_S16384x16384_0_1 (broadcastInDim S1x16384 ![1] bcast_S16384_S1x16384_1 (cmpi .eq x1 (broadcastInDim S16384 ![] bcast_S_S16384 (constantI S_ 32 0#32))))))
    (maximumf
      (subf (broadcastInDim S16384x16384 ![] bcast_S_S16384x16384 (constant (F := Ideal) S_ .f32 0x3F800000#32))
        (subf
          (broadcastInDim S16384x16384 ![0, 1] bcast_S16384x1_S16384x16384_0_1 (broadcastInDim S16384x1 ![0] bcast_S16384_S16384x1_0 (sigRow (F := Ideal) x0)))
          (broadcastInDim S16384x16384 ![0, 1] bcast_S1x16384_S16384x16384_0_1 (broadcastInDim S1x16384 ![1] bcast_S16384_S1x16384_1 (sigRow (F := Ideal) x0)))))
      (broadcastInDim S16384x16384 ![] bcast_S_S16384x16384 (constant (F := Ideal) S_ .f32 0x00000000#32)))
    (broadcastInDim S16384x16384 ![] bcast_S_S16384x16384 (id (constant (F := Ideal) S_ .f32 0x00000000#32)))

/-- At the pair (a, b) it holds the pair's term of the specification. -/
theorem integrand_apply (x0 : FVec Ideal S16384 .f32) (x1 : IVec S16384 32) (a b : Fin 16384) :
    integrand x0 x1 (ix2 a b) = Cert.Hinge.pair (x0 (ix1 a)) (x0 (ix1 b)) (x1 (ix1 a)) (x1 (ix1 b)) := by
  have he : (broadcastInDim S16384x16384 ![] bcast_S_S16384x16384 (id (constant (F := Ideal) S_ .f32 0x00000000#32))) (ix2 a b) = 0 := by
    rw [bcast_scalar_square]; exact Ideal.ofBits_zero_f32
  unfold integrand
  rw [select_apply, mask_apply, hinge_apply, he, select_mask]
  rfl

/-! ## The sum -/

/-- The sum over every axis, from the float word 0: the double sum over the two coordinates. -/
theorem reduce_total (y : FVec Ideal S16384x16384 .f32) (i : S_.Idx) :
    Host.reduceAdd (F := Ideal) y (constant (F := Ideal) S_ .f32 0x00000000#32) reducesTo_S16384x16384_S_d0_1 h_S_ i
      = ∑ a : Fin 16384, ∑ b : Fin 16384, y (ix2 a b) := by
  simp only [Host.reduceAdd, Ideal.hostReduceAdd_def]
  rw [Ideal.hostReduceAdd_total reducesTo_S16384x16384_S_d0_1 (fun b => b.elim0), sum_idx2]
  show Ideal.ofBits .f32 0x00000000#32 + _ = _
  rw [Ideal.ofBits_zero_f32, zero_add]

/-- The reference's total is the sum of the array above. -/
theorem refTotal_unfold (x0 : FVec Ideal S16384 .f32) (x1 : IVec S16384 32) :
    refTotal (F := Ideal) x0 x1
      = Host.reduceAdd (F := Ideal) (integrand x0 x1) (constant (F := Ideal) S_ .f32 0x00000000#32) reducesTo_S16384x16384_S_d0_1 h_S_ := rfl

/-- THE REFERENCE'S TOTAL IS THE SPECIFICATION'S: the sum over all ordered pairs of the pair's term. -/
theorem refTotal_eq (x0 : FVec Ideal S16384 .f32) (x1 : IVec S16384 32) :
    refTotal (F := Ideal) x0 x1 = fun _ => Cert.Hinge.total (fun a => x0 (ix1 a)) (fun a => x1 (ix1 a)) := by
  funext i
  rw [refTotal_unfold, reduce_total]
  unfold Cert.Hinge.total
  exact Finset.sum_congr rfl fun a _ => Finset.sum_congr rfl fun b _ => integrand_apply x0 x1 a b

end Cert.ReferenceIdeal.RefValue

end
-- ==== Proof.Claims.lean ====
/-
  The five claims.

  Frames: each program runs to its end, faults nowhere and leaves the scores and the labels as they were — the
  kernel's two programs by the launch of a region whose windows share the two argument arrays, followed by the host
  operations after it; the reference by its straight line of host operations.
  Equivalence at the ideal instance: the kernel's output array ends at the sum, tile after tile, of the hinge terms
  of the 256 tiles of 1024 × 1024 ordered pairs; the reference adds the 16384 × 16384 terms at once.  Addition of
  extended reals is commutative and associative, so both are the one double sum `Cert.Hinge.total`; the last
  operations (the count of positive and of negative labels, the quotient, the guard against an empty class) are the
  same on both sides and are applied to equal totals.
-/
import proofs.«154038_j90666759619072_2_alg».proof.Defs
import proofs.«154038_j90666759619072_2_alg».proof.Proof.KIRun
import proofs.«154038_j90666759619072_2_alg».proof.Proof.KIValue
import proofs.«154038_j90666759619072_2_alg».proof.Proof.KBRun
import proofs.«154038_j90666759619072_2_alg».proof.Proof.RefTotal
import proofs.«154038_j90666759619072_2_alg».proof.Proof.Gen.Pre_finite_inputs

noncomputable section

namespace Cert.Proof.Claims

open Idealize.ShloMosaic Idealize.ShloMosaic.TcCoe Idealize.SL.Sem Idealize.ShloMosaic.ValueIdx

theorem frame_k : Cert.frame_Kernel := fun m ρ _ => Cert.Kernel.Hand.frame m ρ
theorem frame_ki : Cert.frame_KernelIdeal := fun m ρ _ => Cert.KernelIdeal.Hand.frame m ρ
theorem frame_ri : Cert.frame_ReferenceIdeal := fun m ρ _ =>
  (θ_run Cert.ReferenceIdeal.defs _ _).mono (fun _ h c => (h c).2) (Cert.ReferenceIdeal.RefValue.run (F := Ideal) m ρ)

open Cert.KernelIdeal in
/-- The output array's one element, re-laid as a scalar, is the double sum over all ordered pairs. -/
theorem kernel_total (m : (ℓ : Loc Cert.KernelIdeal.nD Cert.KernelIdeal.τ Cert.KernelIdeal.sig) → Buf (Elt Ideal) ℓ) (c : Dev Cert.KernelIdeal.nD) :
    shapeCast S_ ((Cert.KernelIdeal.Hand.dats (F := Ideal) m 0 c).arrAt 4 cfg0.N) Cert.KernelIdeal.Facts₀.shapeCasts_S1x1_S_
      = fun _ => Cert.Hinge.total (fun a => m ((c.tc : Thread nD τ).loc main_arg0) (ix1 a)) (fun a => m ((c.tc : Thread nD τ).loc main_arg1) (ix1 a)) := by
  funext j
  unfold shapeCast
  exact Cert.KernelIdeal.Hand.final4_val m c _

theorem algebraic : Cert.algebraic_KernelIdeal_ReferenceIdeal := by
  intro m ρ m' ρ' _ hagree
  refine ⟨fun c => Cert.Hinge.tailFn (F := Ideal) Cert.KernelIdeal.Facts₀.bcast_S_S16384 Cert.KernelIdeal.Facts₀.reducesTo_S16384_S_d0
      Cert.KernelIdeal.Facts₀.h_S_ Cert.KernelIdeal.Facts₀.natLt_1_32
      (fun _ => Cert.Hinge.total (fun a => m ((c.tc : Thread Cert.KernelIdeal.nD Cert.KernelIdeal.τ).loc Cert.KernelIdeal.main_arg0) (ix1 a))
        (fun a => m ((c.tc : Thread Cert.KernelIdeal.nD Cert.KernelIdeal.τ).loc Cert.KernelIdeal.main_arg1) (ix1 a)))
      (m ((c.tc : Thread Cert.KernelIdeal.nD Cert.KernelIdeal.τ).loc Cert.KernelIdeal.main_arg1)), ?_, ?_⟩
  · refine (θ_run Cert.KernelIdeal.defs _ _).mono (fun _ h c => ⟨?_, (h c).2.1, (h c).2.2⟩)
      (Cert.KernelIdeal.Hand.run_val (F := Ideal) m ρ)
    rw [(h c).1, kernel_total]
  · refine (θ_run Cert.ReferenceIdeal.defs _ _).mono (fun _ h c => ⟨?_, (h c).2.1, (h c).2.2⟩)
      (Cert.ReferenceIdeal.RefValue.run (F := Ideal) m' ρ')
    rw [(h c).1, Cert.ReferenceIdeal.RefValue.refTotal_eq, (hagree c).1, (hagree c).2]

end Cert.Proof.Claims

end
-- ==== Proof.lean ====
/-
  The certificate of the pairwise hinge kernel against its reference.

  For scores x and labels y of length 16384 both programs return  total / max (P·Q) 1  when  P·Q > 0  and 0 otherwise,
  where P and Q count the labels equal to 1 and to 0 and
      total = Σ_a Σ_b [y_a = 1 ∧ y_b = 0] · max (1 − (σ x_a − σ x_b)) 0 .
  The kernel visits the square of ordered pairs in 16 × 16 tiles of 1024 × 1024 pairs, multiplies each hinge by the
  two labels' indicator (a product with 0 or 1, which on the extended reals is the selection the reference makes),
  sums each tile by rows and then over the rows, and keeps a running total in a scratch cell that it copies out after
  the last tile.  The reference forms all pairs at once and adds them in one sum.  The two totals are one double sum
  because addition of extended reals is commutative and associative; no finiteness of the inputs is used.
  The claims are proved in `Proof/Claims.lean`; the facts of the programs' stated side conditions are the generated ones.
-/
import proofs.«154038_j90666759619072_2_alg».proof.Defs
import proofs.«154038_j90666759619072_2_alg».proof.Proof.Gen.Kernel
import proofs.«154038_j90666759619072_2_alg».proof.Proof.Gen.KernelIdeal
import proofs.«154038_j90666759619072_2_alg».proof.Proof.Gen.ReferenceIdeal
import proofs.«154038_j90666759619072_2_alg».proof.Proof.Gen.Pre_finite_inputs
import proofs.«154038_j90666759619072_2_alg».proof.Proof.Claims

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, trivial, Claims.algebraic⟩

end Cert.Proof

end
